-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S5x128x128 : Shape := ⟨3, ![5, 128, 128]⟩
abbrev S5x128 : Shape := ⟨2, ![5, 128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg6 : FVec F S128x47 .f32) (main_arg7 : FVec F S128x47 .f32) (main_arg8 : FVec F S47 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S128x47 .f32 := Host.absf main_arg6
  let main_cst_6 : FVec F S_ .f32 := constant S_ .f32 0x7F800000#32
  let main_v20 : FVec F S128x47 .f32 := broadcastInDim S128x47 ![] bcast_S_S128x47 main_cst_6
  let main_v21 : IVec S128x47 1 := cmpf .olt main_v19 main_v20
  let main_c_7 : IVec S_ 1 := constantI S_ 1 1#1
  let main_v22 : IVec S_ 1 := (fun x v => Host.reduce IntOp.andi x v reducesTo_S128x47_S_d0_1 h_S_) main_v21 main_c_7
  let main_v23 : IVec S_ 1 := andi main_v18 main_v22
  let main_v24 : FVec F S128x47 .f32 := Host.absf main_arg7
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg8
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S5x128x128 .f32) (main_arg4 : FVec F S5x128x128 .f32) (main_arg5 : FVec F S5x128 .f32) (main_arg6 : FVec F S128x47 .f32) (main_arg7 : FVec F S128x47 .f32) (main_arg8 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128x128 .f32 := Host.absf main_arg4
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S5x128x128 : Shape := ⟨3, ![5, 128, 128]⟩
abbrev S5x128 : Shape := ⟨2, ![5, 128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x47 : Shape := ⟨2, ![1, 47]⟩
abbrev S100000x47 : Shape := ⟨2, ![100000, 47]⟩
abbrev S5000x47 : Shape := ⟨2, ![5000, 47]⟩

abbrev nBuf : Space → Nat
  | .hbm => 159
  | .vmem => 54
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S5x128x128, .f32⟩
  | 4 => ⟨S5x128x128, .f32⟩
  | 5 => ⟨S5x128, .f32⟩
  | 6 => ⟨S128x47, .f32⟩
  | 7 => ⟨S128x47, .f32⟩
  | 8 => ⟨S47, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x1, .f32⟩
  | 35 => ⟨S100000x128, .f32⟩
  | 36 => ⟨S100000x128, .f32⟩
  | 37 => ⟨S1x128x128, .f32⟩
  | 38 => ⟨S128x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S1x128x128, .f32⟩
  | 62 => ⟨S128x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x1, .f32⟩
  | 83 => ⟨S100000x128, .f32⟩
  | 84 => ⟨S100000x128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x1, .f32⟩
  | 107 => ⟨S100000x128, .f32⟩
  | 108 => ⟨S100000x128, .f32⟩
  | 109 => ⟨S1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x1, .f32⟩
  | 3 => ⟨S100000x128, .f32⟩
  | 4 => ⟨S100000x128, .f32⟩
  | 5 => ⟨S1x128x128, .f32⟩
  | 6 => ⟨S128x128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x1, .f32⟩
  | 27 => ⟨S100000x128, .f32⟩
  | 28 => ⟨S100000x128, .f32⟩
  | 29 => ⟨S1x47, .f32⟩
  | 30 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x47, .f32⟩
  | .local _ .vmem, ⟨50, _⟩ => ⟨S128x47, .f32⟩
  | .local _ .vmem, ⟨51, _⟩ => ⟨S1x47, .f32⟩
  | .local _ .vmem, ⟨52, _⟩ => ⟨S5000x47, .f32⟩
  | .local _ .vmem, ⟨53, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_11 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_14 : Ref sig .tc := ⟨.hbm, 117, rfl⟩
abbrev main_v92 : Ref sig .tc := ⟨.hbm, 118, rfl⟩
abbrev main_v93 : Ref sig .tc := ⟨.hbm, 119, rfl⟩
abbrev main_c_15 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_17 : Ref sig .tc := ⟨.hbm, 141, rfl⟩
abbrev main_v113 : Ref sig .tc := ⟨.hbm, 142, rfl⟩
abbrev main_v114 : Ref sig .tc := ⟨.hbm, 143, rfl⟩
abbrev main_c_18 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_19 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x47 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x47 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x47 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x47 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x47.size a ≤ S128x47.size a
  hwx5_2 : ∀ i : grid5.Coords, EltTy.bits .f32 = 32 ∨ (Rect.block (s := S128x47) S128x47.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x47.size a ≤ S128x47.size a
  hwx5_3 : ∀ i : grid5.Coords, EltTy.bits .f32 = 32 ∨ (Rect.block (s := S128x47) S128x47.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x47.size a ≤ S1x47.size a
  hwx5_4 : ∀ i : grid5.Coords, EltTy.bits .f32 = 32 ∨ (Rect.block (s := S1x47) S1x47.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x47.size a ≤ S100000x47.size a
  hwx5_5 : ∀ i : grid5.Coords, EltTy.bits .f32 = 32 ∨ (Rect.block (s := S100000x47) S5000x47.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v112) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S128x47.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x47.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x47.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S5000x47.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S5x128x128 : Shape := ⟨3, ![5, 128, 128]⟩
abbrev S5x128 : Shape := ⟨2, ![5, 128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩
abbrev S100000x47 : Shape := ⟨2, ![100000, 47]⟩
abbrev S1x47 : Shape := ⟨2, ![1, 47]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S5x128x128, .f32⟩
  | 4 => ⟨S5x128x128, .f32⟩
  | 5 => ⟨S5x128, .f32⟩
  | 6 => ⟨S128x47, .f32⟩
  | 7 => ⟨S128x47, .f32⟩
  | 8 => ⟨S47, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S1x128x128, .f32⟩
  | 22 => ⟨S128x128, .f32⟩
  | 23 => ⟨S1x128x128, .f32⟩
  | 24 => ⟨S128x128, .f32⟩
  | 25 => ⟨S1x128, .f32⟩
  | 26 => ⟨S128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x1, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128x128, .f32⟩
  | 50 => ⟨S128x128, .f32⟩
  | 51 => ⟨S1x128x128, .f32⟩
  | 52 => ⟨S128x128, .f32⟩
  | 53 => ⟨S1x128, .f32⟩
  | 54 => ⟨S128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x1, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S1x128x128, .f32⟩
  | 81 => ⟨S128x128, .f32⟩
  | 82 => ⟨S1x128x128, .f32⟩
  | 83 => ⟨S128x128, .f32⟩
  | 84 => ⟨S1x128, .f32⟩
  | 85 => ⟨S128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x1, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S1x128x128, .f32⟩
  | 114 => ⟨S128x128, .f32⟩
  | 115 => ⟨S1x128, .f32⟩
  | 116 => ⟨S128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x1, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S1x128x128, .f32⟩
  | 15 => ⟨S128x128, .f32⟩
  | 16 => ⟨S1x128x128, .f32⟩
  | 17 => ⟨S128x128, .f32⟩
  | 18 => ⟨S1x128, .f32⟩
  | 19 => ⟨S128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x1, .f32⟩
  | 34 => ⟨S100000x128, .f32⟩
  | 35 => ⟨S100000x128, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x47, .f32⟩
  | 62 => ⟨S100000x47, .f32⟩
  | 63 => ⟨S100000x47, .f32⟩
  | 64 => ⟨S1x47, .f32⟩
  | 65 => ⟨S100000x47, .f32⟩
  | 66 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_call1_cst : Ref sig .tc := ⟨.hbm, 108, rfl⟩
abbrev main_call1_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_11 : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_call2_cst : Ref sig .tc := ⟨.hbm, 139, rfl⟩
abbrev main_call2_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_14 : Ref sig .tc := ⟨.hbm, 148, rfl⟩
abbrev main_v117 : Ref sig .tc := ⟨.hbm, 149, rfl⟩
abbrev main_v118 : Ref sig .tc := ⟨.hbm, 150, rfl⟩
abbrev main_c_15 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_16 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_call3_cst : Ref sig .tc := ⟨.hbm, 170, rfl⟩
abbrev main_call3_v0 : Ref sig .tc := ⟨.hbm, 171, rfl⟩
abbrev main_v136 : Ref sig .tc := ⟨.hbm, 172, rfl⟩
abbrev main_c_17 : Ref sig .tc := ⟨.hbm, 173, rfl⟩
abbrev main_v137 : Ref sig .tc := ⟨.hbm, 174, rfl⟩
abbrev main_v138 : Ref sig .tc := ⟨.hbm, 175, rfl⟩
abbrev main_c_18 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_19 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Spec.lean ====
/-
  The network both programs compute, stated once over the extended reals.

  A layer maps node features h (100000 rows of 128) and their aggregated neighbour features to
      out (p, q) = (∑ₖ h (p, k) · ws (k, q) + ∑ₖ neigh (p, k) · wn (k, q)) + b q,
  and layers 1 to 4 are followed by max (·, 0). The aggregation agg (gather the source rows, add them into the
  destination rows, scale by the inverse in-degree) is the same chain of host operations in both programs; it is
  kept as a parameter here, so that nothing below ever looks inside it.
-/
import Idealize.ShloMosaic.PureOps.Ideal.Laws
import Idealize.ShloMosaic.Lib.ValueIdx

noncomputable section

open scoped BigOperators

namespace Cert.Sage

open Idealize.ShloMosaic Idealize.ShloMosaic.ValueIdx

/-- Node features: 100000 rows of 128. -/
abbrev Feat : Shape := ⟨2, ![100000, 128]⟩

/-- One entry of a layer before its activation: row p of h against column q of ws, row p of neigh against column q
    of wn, plus the bias at q. -/
def denseAt {D : Nat} (h neigh : Feat.Idx → EReal) (ws wn : (⟨2, ![128, D]⟩ : Shape).Idx → EReal)
    (b : (⟨1, ![D]⟩ : Shape).Idx → EReal) (p : Fin 100000) (q : Fin D) : EReal :=
  (∑ k : Fin 128, h (ix2 p k) * ws (ix2 k q) + ∑ k : Fin 128, neigh (ix2 p k) * wn (ix2 k q)) + b (ix1 q)

/-- A layer before its activation, as one array. -/
def dense {D : Nat} (h neigh : Feat.Idx → EReal) (ws wn : (⟨2, ![128, D]⟩ : Shape).Idx → EReal)
    (b : (⟨1, ![D]⟩ : Shape).Idx → EReal) : (⟨2, ![100000, D]⟩ : Shape).Idx → EReal :=
  fun j => denseAt h neigh ws wn b (j 0) (j 1)

theorem dense_apply {D : Nat} (h neigh : Feat.Idx → EReal) (ws wn : (⟨2, ![128, D]⟩ : Shape).Idx → EReal)
    (b : (⟨1, ![D]⟩ : Shape).Idx → EReal) (p : Fin 100000) (q : Fin D) :
    dense h neigh ws wn b (ix2 p q) = denseAt h neigh ws wn b p q := rfl

/-- The activation of layers 1 to 4: the maximum with zero, entry by entry. -/
def relu {S : Shape} (y : S.Idx → EReal) : S.Idx → EReal := fun j => max (y j) 0

theorem relu_apply {S : Shape} (y : S.Idx → EReal) (j : S.Idx) : relu y j = max (y j) 0 := rfl

/-- One hidden layer with its activation. -/
def hidden (agg : (Feat.Idx → EReal) → Feat.Idx → EReal) (ws wn : (⟨2, ![128, 128]⟩ : Shape).Idx → EReal)
    (b : (⟨1, ![128]⟩ : Shape).Idx → EReal) (h : Feat.Idx → EReal) : Feat.Idx → EReal :=
  relu (dense h (agg h) ws wn b)

/-- The whole network: layer 0 without activation, layers 1 to 4 with it, the output layer (47 classes) without. -/
def net (agg : (Feat.Idx → EReal) → Feat.Idx → EReal) (x : Feat.Idx → EReal)
    (ws0 wn0 : (⟨2, ![128, 128]⟩ : Shape).Idx → EReal) (b0 : (⟨1, ![128]⟩ : Shape).Idx → EReal)
    (ws1 wn1 : (⟨2, ![128, 128]⟩ : Shape).Idx → EReal) (b1 : (⟨1, ![128]⟩ : Shape).Idx → EReal)
    (ws2 wn2 : (⟨2, ![128, 128]⟩ : Shape).Idx → EReal) (b2 : (⟨1, ![128]⟩ : Shape).Idx → EReal)
    (ws3 wn3 : (⟨2, ![128, 128]⟩ : Shape).Idx → EReal) (b3 : (⟨1, ![128]⟩ : Shape).Idx → EReal)
    (ws4 wn4 : (⟨2, ![128, 128]⟩ : Shape).Idx → EReal) (b4 : (⟨1, ![128]⟩ : Shape).Idx → EReal)
    (wso wno : (⟨2, ![128, 47]⟩ : Shape).Idx → EReal) (bo : (⟨1, ![47]⟩ : Shape).Idx → EReal) :
    (⟨2, ![100000, 47]⟩ : Shape).Idx → EReal :=
  let h1 := dense x (agg x) ws0 wn0 b0
  let h2 := hidden agg ws1 wn1 b1 h1
  let h3 := hidden agg ws2 wn2 b2 h2
  let h4 := hidden agg ws3 wn3 b3 h3
  let h5 := hidden agg ws4 wn4 b4 h4
  dense h5 (agg h5) wso wno bo

end Cert.Sage

end
-- ==== Proof.KernDefs.lean ====
/-
  The host side of the kernel's program, named once: the inverse in-degree, the neighbour aggregation (gather the
  source rows, add them into the destination rows, scale each row by the inverse in-degree), the per-layer slices of
  the stacked weights and biases, and the bias vector laid out as a one-row matrix (the form the kernel's bias
  window takes it in). Everything here is a composition of host operations that is never opened afterwards, except
  the one-row layout, which is read back at an index.
-/
import proofs.«156612_j90675349553219_1_alg».proof.Proof.Gen.KernelIdeal.Frame
import proofs.«156612_j90675349553219_1_alg».proof.Proof.Spec
import Idealize.ShloMosaic.Lib.ValueLayout

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

/-- An edge list's one column of node numbers. -/
abbrev Edges := (⟨S1600000, .i32⟩ : BufTy).Contents (Elt Ideal)
/-- Node features. -/
abbrev Feats := (⟨S100000x128, .f32⟩ : BufTy).Contents (Elt Ideal)

/-- One over the in-degree of each node, the in-degree counted by adding a one per edge into its destination and
    clamped below by one. -/
def invDeg (dst : Edges) : (⟨S100000, .f32⟩ : BufTy).Contents (Elt Ideal) :=
  Host.divf (F := Ideal) (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The aggregation with the row scale given: rows of h gathered at the (wrapped) source numbers, added into the
    destination rows of a zero array, each row then multiplied by its scale. -/
def aggWith (src dst : Edges) (scale : (⟨S100000, .f32⟩ : BufTy).Contents (Elt Ideal)) (h : Feats) : Feats :=
  mulf (F := Ideal)
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 scale))

/-- The mean aggregation over incoming edges. -/
def agg (src dst : Edges) (h : Feats) : Feats := aggWith src dst (invDeg dst) h

/-- Slice 0 of a stack of five 128 × 128 matrices, as a matrix. -/
def wmat0 (a : (⟨S5x128x128, .f32⟩ : BufTy).Contents (Elt Ideal)) : (⟨S128x128, .f32⟩ : BufTy).Contents (Elt Ideal) :=
  shapeCast S128x128 (extractStridedSlice S1x128x128 ![0, 0, 0] a slices_S5x128x128_S1x128x128_0_0_0) shapeCasts_S1x128x128_S128x128

/-- Row 0 of the five bias vectors, as a vector. -/
def bvec0 (a : (⟨S5x128, .f32⟩ : BufTy).Contents (Elt Ideal)) : (⟨S128, .f32⟩ : BufTy).Contents (Elt Ideal) :=
  shapeCast S128 (extractStridedSlice S1x128 ![0, 0] a slices_S5x128_S1x128_0_0) shapeCasts_S1x128_S128

/-- Slice 1 of a stack of five 128 × 128 matrices, as a matrix. -/
def wmat1 (a : (⟨S5x128x128, .f32⟩ : BufTy).Contents (Elt Ideal)) : (⟨S128x128, .f32⟩ : BufTy).Contents (Elt Ideal) :=
  shapeCast S128x128 (extractStridedSlice S1x128x128 ![1, 0, 0] a slices_S5x128x128_S1x128x128_1_0_0) shapeCasts_S1x128x128_S128x128

/-- Row 1 of the five bias vectors, as a vector. -/
def bvec1 (a : (⟨S5x128, .f32⟩ : BufTy).Contents (Elt Ideal)) : (⟨S128, .f32⟩ : BufTy).Contents (Elt Ideal) :=
  shapeCast S128 (extractStridedSlice S1x128 ![1, 0] a slices_S5x128_S1x128_1_0) shapeCasts_S1x128_S128

/-- Slice 2 of a stack of five 128 × 128 matrices, as a matrix. -/
def wmat2 (a : (⟨S5x128x128, .f32⟩ : BufTy).Contents (Elt Ideal)) : (⟨S128x128, .f32⟩ : BufTy).Contents (Elt Ideal) :=
  shapeCast S128x128 (extractStridedSlice S1x128x128 ![2, 0, 0] a slices_S5x128x128_S1x128x128_2_0_0) shapeCasts_S1x128x128_S128x128

/-- Row 2 of the five bias vectors, as a vector. -/
def bvec2 (a : (⟨S5x128, .f32⟩ : BufTy).Contents (Elt Ideal)) : (⟨S128, .f32⟩ : BufTy).Contents (Elt Ideal) :=
  shapeCast S128 (extractStridedSlice S1x128 ![2, 0] a slices_S5x128_S1x128_2_0) shapeCasts_S1x128_S128

/-- Slice 3 of a stack of five 128 × 128 matrices, as a matrix. -/
def wmat3 (a : (⟨S5x128x128, .f32⟩ : BufTy).Contents (Elt Ideal)) : (⟨S128x128, .f32⟩ : BufTy).Contents (Elt Ideal) :=
  shapeCast S128x128 (extractStridedSlice S1x128x128 ![3, 0, 0] a slices_S5x128x128_S1x128x128_3_0_0) shapeCasts_S1x128x128_S128x128

/-- Row 3 of the five bias vectors, as a vector. -/
def bvec3 (a : (⟨S5x128, .f32⟩ : BufTy).Contents (Elt Ideal)) : (⟨S128, .f32⟩ : BufTy).Contents (Elt Ideal) :=
  shapeCast S128 (extractStridedSlice S1x128 ![3, 0] a slices_S5x128_S1x128_3_0) shapeCasts_S1x128_S128

/-- Slice 4 of a stack of five 128 × 128 matrices, as a matrix. -/
def wmat4 (a : (⟨S5x128x128, .f32⟩ : BufTy).Contents (Elt Ideal)) : (⟨S128x128, .f32⟩ : BufTy).Contents (Elt Ideal) :=
  shapeCast S128x128 (extractStridedSlice S1x128x128 ![4, 0, 0] a slices_S5x128x128_S1x128x128_4_0_0) shapeCasts_S1x128x128_S128x128

/-- Row 4 of the five bias vectors, as a vector. -/
def bvec4 (a : (⟨S5x128, .f32⟩ : BufTy).Contents (Elt Ideal)) : (⟨S128, .f32⟩ : BufTy).Contents (Elt Ideal) :=
  shapeCast S128 (extractStridedSlice S1x128 ![4, 0] a slices_S5x128_S1x128_4_0) shapeCasts_S1x128_S128

/-- A bias vector laid out as a one-row matrix, read back: the entry in column q of the row is the vector's entry q. -/
theorem row_apply {D : Nat} (b : (⟨1, ![D]⟩ : Shape).Idx → EReal) (h : (⟨1, ![D]⟩ : Shape).ShapeCasts ⟨2, ![1, D]⟩) :
    (fun i : (⟨1, ![D]⟩ : Shape).Idx => shapeCast ⟨2, ![1, D]⟩ b h (ix2 (0 : Fin 1) (i 0))) = b := by
  funext i
  rw [shapeCast_a_1a_apply b h 0 (i 0)]
  exact congrArg b (eq_ix1 i).symm

/-- What the walk through the program carries from one segment boundary to the next: the edge lists, the stacked
    weights and biases and the output layer's parameters still hold the launch contents, and the inverse in-degree
    buffer holds the inverse in-degree. -/
structure Held (W : Valuation τ sig (Elt Ideal)) (src dst : Edges)
    (a3 a4 : (⟨S5x128x128, .f32⟩ : BufTy).Contents (Elt Ideal)) (a5 : (⟨S5x128, .f32⟩ : BufTy).Contents (Elt Ideal))
    (a6 a7 : (⟨S128x47, .f32⟩ : BufTy).Contents (Elt Ideal)) (a8 : (⟨S47, .f32⟩ : BufTy).Contents (Elt Ideal)) : Prop where
  h1 : W (Proc.devRef .tc main_arg1) = src
  h2 : W (Proc.devRef .tc main_arg2) = dst
  h3 : W (Proc.devRef .tc main_arg3) = a3
  h4 : W (Proc.devRef .tc main_arg4) = a4
  h5 : W (Proc.devRef .tc main_arg5) = a5
  h6 : W (Proc.devRef .tc main_arg6) = a6
  h7 : W (Proc.devRef .tc main_arg7) = a7
  h8 : W (Proc.devRef .tc main_arg8) = a8
  hd : W (Proc.devRef .tc main_v7) = invDeg dst

/-- The layer's map respects equality of each of its five arguments. -/
theorem dense_congr {D : Nat} {h h' n n' : Cert.Sage.Feat.Idx → EReal} {ws ws' wn wn' : (⟨2, ![128, D]⟩ : Shape).Idx → EReal}
    {b b' : (⟨1, ![D]⟩ : Shape).Idx → EReal} (e0 : h = h') (e1 : n = n') (e2 : ws = ws') (e3 : wn = wn') (e4 : b = b') :
    Cert.Sage.dense h n ws wn b = Cert.Sage.dense h' n' ws' wn' b' := by
  subst e0 e1 e2 e3 e4; rfl

end Cert.Sage.Kern

end
-- ==== Proof.KernHost0.lean ====
/-
  Host stretch 0 of the kernel's program (the operations between the launch and region 0), read at any buffer
  contents W it may start from: what it leaves in the five buffers region 0 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 0 reads. -/
theorem host0_feat : StableHlo.after (hostOps0 (F := Ideal)) W (Proc.devRef .tc main_arg0) = W (Proc.devRef .tc main_arg0) := by
  after_results_simp

/-- It computes the inverse in-degree from the destination list. -/
theorem host0_invdeg : StableHlo.after (hostOps0 (F := Ideal)) W (Proc.devRef .tc main_v7) = invDeg (W (Proc.devRef .tc main_arg2)) := by
  after_results_simp
  rfl

set_option maxHeartbeats 1000000 in
/-- It aggregates the input features. -/
theorem host0_neigh : StableHlo.after (hostOps0 (F := Ideal)) W (Proc.devRef .tc main_v20)
    = agg (W (Proc.devRef .tc main_arg1)) (W (Proc.devRef .tc main_arg2)) (W (Proc.devRef .tc main_arg0)) := by
  after_results_simp
  rfl

/-- It slices layer 0's two weight matrices out of the stacks. -/
theorem host0_ws : StableHlo.after (hostOps0 (F := Ideal)) W (Proc.devRef .tc main_v22) = wmat0 (W (Proc.devRef .tc main_arg3)) := by
  after_results_simp
  rfl
theorem host0_wn : StableHlo.after (hostOps0 (F := Ideal)) W (Proc.devRef .tc main_v24) = wmat0 (W (Proc.devRef .tc main_arg4)) := by
  after_results_simp
  rfl
/-- It slices layer 0's bias vector out and lays it out as one row. -/
theorem host0_bias : StableHlo.after (hostOps0 (F := Ideal)) W (Proc.devRef .tc main_v27)
    = shapeCast S1x128 (bvec0 (W (Proc.devRef .tc main_arg5))) shapeCasts_S128_S1x128 := by
  after_results_simp
  rfl

set_option maxHeartbeats 2000000 in
/-- From the launch contents the stretch establishes everything the walk carries. -/
theorem held_host0 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (e1 : W (Proc.devRef .tc main_arg1) = src) (e2 : W (Proc.devRef .tc main_arg2) = dst) (e3 : W (Proc.devRef .tc main_arg3) = a3) (e4 : W (Proc.devRef .tc main_arg4) = a4)
    (e5 : W (Proc.devRef .tc main_arg5) = a5) (e6 : W (Proc.devRef .tc main_arg6) = a6) (e7 : W (Proc.devRef .tc main_arg7) = a7) (e8 : W (Proc.devRef .tc main_arg8) = a8) :
    Held (StableHlo.after (hostOps0 (F := Ideal)) W) src dst a3 a4 a5 a6 a7 a8 where
  h1 := (show StableHlo.after (hostOps0 (F := Ideal)) W (Proc.devRef .tc main_arg1) = W (Proc.devRef .tc main_arg1) from by after_results_simp).trans e1
  h2 := (show StableHlo.after (hostOps0 (F := Ideal)) W (Proc.devRef .tc main_arg2) = W (Proc.devRef .tc main_arg2) from by after_results_simp).trans e2
  h3 := (show StableHlo.after (hostOps0 (F := Ideal)) W (Proc.devRef .tc main_arg3) = W (Proc.devRef .tc main_arg3) from by after_results_simp).trans e3
  h4 := (show StableHlo.after (hostOps0 (F := Ideal)) W (Proc.devRef .tc main_arg4) = W (Proc.devRef .tc main_arg4) from by after_results_simp).trans e4
  h5 := (show StableHlo.after (hostOps0 (F := Ideal)) W (Proc.devRef .tc main_arg5) = W (Proc.devRef .tc main_arg5) from by after_results_simp).trans e5
  h6 := (show StableHlo.after (hostOps0 (F := Ideal)) W (Proc.devRef .tc main_arg6) = W (Proc.devRef .tc main_arg6) from by after_results_simp).trans e6
  h7 := (show StableHlo.after (hostOps0 (F := Ideal)) W (Proc.devRef .tc main_arg7) = W (Proc.devRef .tc main_arg7) from by after_results_simp).trans e7
  h8 := (show StableHlo.after (hostOps0 (F := Ideal)) W (Proc.devRef .tc main_arg8) = W (Proc.devRef .tc main_arg8) from by after_results_simp).trans e8
  hd := (host0_invdeg W).trans (congrArg invDeg e2)

end Cert.Sage.Kern

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.RegionBody.lean ====
/-
  What one row block of a layer holds, entry by entry: the block of node features against the first weight matrix,
  the block of aggregated features against the second, both as plain sums over the 128 input columns, plus the bias
  entry of the column — and, for the hidden layers, the maximum of that with zero.
-/
import proofs.«156612_j90675349553219_1_alg».proof.Proof.Gen.KernelIdeal.Skeleton
import proofs.«156612_j90675349553219_1_alg».proof.Proof.LibPlainDot
import Idealize.ShloMosaic.Lib.Pipeline.Value
import Idealize.ShloMosaic.Lib.ValueLayout

noncomputable section

open scoped BigOperators

namespace Cert.Sage.Body

open Idealize.ShloMosaic Idealize.ShloMosaic.ValueIdx
open Cert.KernelIdeal Cert.KernelIdeal.Gen

/-- Layer 0 (no activation): its block at row p, column q is the two sums over the input columns plus the bias entry of column q. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k0_pay1
  rw [addf_apply, addf_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]

/-- Hidden layer 1: its block at row p, column q is the maximum with zero of the two sums over the input columns plus
    the bias entry of column q. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k1_pay1
  rw [maximumf_apply, addf_apply, addf_apply, broadcast_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]
  rw [show (FloatOps.ofBits FTy.f32 0#32 : Ideal .f32) = 0 from Ideal.ofBits_zero_f32]

/-- Hidden layer 2: its block at row p, column q is the maximum with zero of the two sums over the input columns plus
    the bias entry of column q. -/
theorem pay2_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k2_pay1
  rw [maximumf_apply, addf_apply, addf_apply, broadcast_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]
  rw [show (FloatOps.ofBits FTy.f32 0#32 : Ideal .f32) = 0 from Ideal.ofBits_zero_f32]

/-- Hidden layer 3: its block at row p, column q is the maximum with zero of the two sums over the input columns plus
    the bias entry of column q. -/
theorem pay3_apply (x0 x1 : Vec Ideal S5000x128 .f32) (x2 x3 : Vec Ideal S128x128 .f32) (x4 : Vec Ideal S1x128 .f32)
    (p : Fin 5000) (q : Fin 128) :
    k3_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k3_pay1
  rw [maximumf_apply, addf_apply, addf_apply, broadcast_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]
  rw [show (FloatOps.ofBits FTy.f32 0#32 : Ideal .f32) = 0 from Ideal.ofBits_zero_f32]

/-- Hidden layer 4: its block at row p, column q is the maximum with zero of the two sums over the input columns plus
    the bias entry of column q. -/
theorem pay4_apply (x0 x1 : Vec Ideal S5000x128 .f32) (x2 x3 : Vec Ideal S128x128 .f32) (x4 : Vec Ideal S1x128 .f32)
    (p : Fin 5000) (q : Fin 128) :
    k4_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k4_pay1
  rw [maximumf_apply, addf_apply, addf_apply, broadcast_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]
  rw [show (FloatOps.ofBits FTy.f32 0#32 : Ideal .f32) = 0 from Ideal.ofBits_zero_f32]

/-- The output layer (47 columns, no activation): its block at row p, column q is the two sums over the input columns plus the bias entry of column q. -/
theorem pay5_apply (x0 x1 : Vec Ideal S5000x128 .f32) (x2 x3 : Vec Ideal S128x47 .f32) (x4 : Vec Ideal S1x47 .f32)
    (p : Fin 5000) (q : Fin 47) :
    k5_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k5_pay1
  rw [addf_apply, addf_apply]
  unfold matmul
  rw [Cert.PlainDot.matmul_zero_apply _ rfl rfl rfl rfl rfl rfl,
    Cert.PlainDot.matmul_zero_apply _ rfl rfl rfl rfl rfl rfl,
    broadcastTo_1b_ab_apply]
  simp only [shapeCast_self, truncf_apply]

end Cert.Sage.Body

end
-- ==== Proof.Region0.lean ====
/-
  Region 0 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros0 : (![0, 0] : Fin 2 → Nat) = fun _ => 0 := funext fun a => by fin_cases a <;> rfl

/-! The five arrays the region finds on entry, each as a function of its index: node features, aggregated neighbour
    features, the two weight matrices, the bias row. -/

def feat0 (c : Dev nD) : Feat.Idx → EReal := V c (Pipeline.arrRef spec0 0)
def neigh0 (c : Dev nD) : Feat.Idx → EReal := V c (Pipeline.arrRef spec0 1)
def ws0 (c : Dev nD) : (⟨2, ![128, 128]⟩ : Shape).Idx → EReal := V c (Pipeline.arrRef spec0 2)
def wn0 (c : Dev nD) : (⟨2, ![128, 128]⟩ : Shape).Idx → EReal := V c (Pipeline.arrRef spec0 3)
def bias0 (c : Dev nD) : (⟨2, ![1, 128]⟩ : Shape).Idx → EReal := V c (Pipeline.arrRef spec0 4)

/-- The layer's map of those arrays, as one array. -/
def layer0 (c : Dev nD) : (⟨2, ![100000, 128]⟩ : Shape).Idx → EReal :=
  Cert.Sage.dense (D := 128) (feat0 V c) (neigh0 V c) (ws0 V c) (wn0 V c) (fun i => bias0 V c (ix2 (0 : Fin 1) (i 0)))

/-- Its entry at row r, column q. -/
theorem layer0_apply (c : Dev nD) (r : Fin 100000) (q : Fin 128) :
    layer0 V c (ix2 r q)
      = (∑ k : Fin 128, feat0 V c (ix2 r k) * ws0 V c (ix2 k q) + ∑ k : Fin 128, neigh0 V c (ix2 r k) * wn0 V c (ix2 k q))
        + bias0 V c (ix2 (0 : Fin 1) q) := rfl

/-- The block index maps over the grid: the two feature windows and the output window are at row block t, column block 0;
    the weight matrices and the bias row are whole, at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of window 0's block at grid point t is row 5000·t + p of its array. -/
theorem rows0_0 (c : Dev nD) (t : Fin cfg0.N) (p : Fin 5000) (k : Fin 128) (r : Fin 100000) (hr : r.val = 5000 * t.val + p.val) :
    (iblk0 V c 0 t : Vec Ideal S5000x128 .f32) (ix2 p k) = feat0 V c (ix2 r k) := by
  obtain ⟨e00, e01, e10, e11, -⟩ := index0 t
  show feat0 V c (((cfg0.win 0).blk t).view.emb (ix2 p k)) = feat0 V c (ix2 r k)
  refine congrArg (feat0 V c) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row p of window 1's block at grid point t is row 5000·t + p of its array. -/
theorem rows0_1 (c : Dev nD) (t : Fin cfg0.N) (p : Fin 5000) (k : Fin 128) (r : Fin 100000) (hr : r.val = 5000 * t.val + p.val) :
    (iblk0 V c 1 t : Vec Ideal S5000x128 .f32) (ix2 p k) = neigh0 V c (ix2 r k) := by
  obtain ⟨e00, e01, e10, e11, -⟩ := index0 t
  show neigh0 V c (((cfg0.win 1).blk t).view.emb (ix2 p k)) = neigh0 V c (ix2 r k)
  refine congrArg (neigh0 V c) ?_
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- Window 2's block at every grid point is its whole array (a weight matrix). -/
theorem whole0_2 (c : Dev nD) (t : Fin cfg0.N) (k : Fin 128) (q : Fin 128) :
    (iblk0 V c 2 t : Vec Ideal S128x128 .f32) (ix2 k q) = ws0 V c (ix2 k q) := by
  obtain ⟨-, -, -, -, e20, e21, e30, e31, -⟩ := index0 t
  show ws0 V c (((cfg0.win 2).blk t).view.emb (ix2 k q)) = ws0 V c (ix2 k q)
  refine congrArg (ws0 V c) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Window 3's block at every grid point is its whole array (a weight matrix). -/
theorem whole0_3 (c : Dev nD) (t : Fin cfg0.N) (k : Fin 128) (q : Fin 128) :
    (iblk0 V c 3 t : Vec Ideal S128x128 .f32) (ix2 k q) = wn0 V c (ix2 k q) := by
  obtain ⟨-, -, -, -, e20, e21, e30, e31, -⟩ := index0 t
  show wn0 V c (((cfg0.win 3).blk t).view.emb (ix2 k q)) = wn0 V c (ix2 k q)
  refine congrArg (wn0 V c) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- Window 4's block at every grid point is its whole array (the bias row). -/
theorem bias0_4 (c : Dev nD) (t : Fin cfg0.N) (q : Fin 128) :
    (iblk0 V c 4 t : Vec Ideal S1x128 .f32) (ix2 (0 : Fin 1) q) = bias0 V c (ix2 (0 : Fin 1) q) := by
  obtain ⟨-, -, -, -, -, -, -, -, e40, e41, -⟩ := index0 t
  show bias0 V c (((cfg0.win 4).blk t).view.emb (ix2 (0 : Fin 1) q)) = bias0 V c (ix2 (0 : Fin 1) q)
  refine congrArg (bias0 V c) ?_
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- Entry (p, q) of the output window's block at grid point t sits at (5000·t + p, q) of the output array. -/
theorem outrow0 (t : Fin cfg0.N) (p : Fin 5000) (q : Fin 128) (r : Fin 100000) (hr : r.val = 5000 * t.val + p.val) :
    ((cfg0.win 5).blk t).view.emb (ix2 p q) = (ix2 r q : (⟨2, ![100000, 128]⟩ : Shape).Idx) := by
  obtain ⟨-, -, -, -, -, -, -, -, -, -, e50, e51⟩ := index0 t
  funext a; apply Fin.ext
  match a with
  | ⟨0, _⟩ => show win0_5.index t (0 : Fin 2) * 5000 + 1 * p.val = r.val; omega
  | ⟨1, _⟩ => show win0_5.index t (1 : Fin 2) * 128 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed0 (c : Dev nD) (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeros0]
  simp only [View.ld_unit_zero (S := S5000x128) zeros0, View.ld_unit_zero (S := S128x128) zeros0, View.ld_unit_zero (S := S1x128) zeros0]
  funext j
  obtain ⟨p, q, rfl⟩ : ∃ (p : Fin 5000) (q : Fin 128), j = ix2 p q := ⟨j 0, j 1, eq_ix2 j⟩
  have ht : t.val < 20 := lt_of_lt_of_eq t.isLt N_0
  have hr : (⟨5000 * t.val + p.val, by omega⟩ : Fin 100000).val = 5000 * t.val + p.val := rfl
  -- the block's entry is the payload at (p, q)
  refine (congrArg (k0_pay1 (F := Ideal) (iblk0 V c 0 t) (iblk0 V c 1 t) (iblk0 V c 2 t) (iblk0 V c 3 t) (iblk0 V c 4 t))
    (show (win0 5).xinj (grid0.coords t) (ix2 p q) = ix2 p q from
      funext fun a => by match a with | ⟨0, _⟩ => rfl | ⟨1, _⟩ => rfl)).trans ?_
  refine (Body.pay0_apply (iblk0 V c 0 t) (iblk0 V c 1 t) (iblk0 V c 2 t) (iblk0 V c 3 t) (iblk0 V c 4 t) p q).trans ?_
  -- the array index under the block's entry is (5000·t + p, q)
  show _ = layer0 V c (((cfg0.win 5).blk t).view.emb (ix2 p q))
  rw [outrow0 t p q _ hr, layer0_apply]
  -- each input block read where the output's rows say
  exact (congrArg₂ (· + ·)
    (congrArg₂ (· + ·) (Finset.sum_congr rfl fun k _ => congrArg₂ (· * ·) (rows0_0 V c t p k _ hr) (whole0_2 V c t k q))
      (Finset.sum_congr rfl fun k _ => congrArg₂ (· * ·) (rows0_1 V c t p k _ hr) (whole0_3 V c t k q))) (bias0_4 V c t q))

/-- An index of the output array is in grid point t's block iff, on each axis, its coordinate is within the block's range. -/
theorem mem_blk0 (t : Fin cfg0.N) (i : (⟨2, ![100000, 128]⟩ : Shape).Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- The 20 row blocks tile the output array: row r is in the block of grid point r / 5000. -/
theorem cover0 (i : (⟨2, ![100000, 128]⟩ : Shape).Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, -, -, e50, e51⟩ := index0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- Once all 20 row blocks are written back, the output array is the layer's map of the entry arrays. -/
theorem array0 (c : Dev nD) : (dat0 (F := Ideal) V c).arrAt 5 cfg0.N = layer0 V c :=
  (dat0 (F := Ideal) V c).arrAt_eq_of_cover 5 (layer0 V c) (fun t _ => flushed0 V c t) cover0

set_option maxHeartbeats 1000000 in
/-- Region 0 (layer 0, no activation): once all 20 row blocks are written back, the output array is the layer's map of the arrays the
    region found on entry — features, aggregated features, the two weight matrices, and the bias row. -/
theorem final0 (c : Dev nD) :
    (dat0 (F := Ideal) V c).arrAt 5 cfg0.N
      = Cert.Sage.dense (D := 128) (V c (Pipeline.arrRef spec0 0)) (V c (Pipeline.arrRef spec0 1)) (V c (Pipeline.arrRef spec0 2))
        (V c (Pipeline.arrRef spec0 3)) (fun i => V c (Pipeline.arrRef spec0 4) (ix2 (0 : Fin 1) (i 0))) :=
  array0 V c

end Cert.Sage.Region

end
-- ==== Proof.Region1.lean ====
/-
  Region 1 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros1 : (![0, 0] : Fin 2 → Nat) = fun _ => 0 := funext fun a => by fin_cases a <;> rfl

/-! The five arrays the region finds on entry, each as a function of its index: node features, aggregated neighbour
    features, the two weight matrices, the bias row. -/

def feat1 (c : Dev nD) : Feat.Idx → EReal := V c (Pipeline.arrRef spec1 0)
def neigh1 (c : Dev nD) : Feat.Idx → EReal := V c (Pipeline.arrRef spec1 1)
def ws1 (c : Dev nD) : (⟨2, ![128, 128]⟩ : Shape).Idx → EReal := V c (Pipeline.arrRef spec1 2)
def wn1 (c : Dev nD) : (⟨2, ![128, 128]⟩ : Shape).Idx → EReal := V c (Pipeline.arrRef spec1 3)
def bias1 (c : Dev nD) : (⟨2, ![1, 128]⟩ : Shape).Idx → EReal := V c (Pipeline.arrRef spec1 4)

/-- The layer's map of those arrays, as one array. -/
def layer1 (c : Dev nD) : (⟨2, ![100000, 128]⟩ : Shape).Idx → EReal :=
  Cert.Sage.relu (Cert.Sage.dense (D := 128) (feat1 V c) (neigh1 V c) (ws1 V c) (wn1 V c) (fun i => bias1 V c (ix2 (0 : Fin 1) (i 0))))

/-- Its entry at row r, column q. -/
theorem layer1_apply (c : Dev nD) (r : Fin 100000) (q : Fin 128) :
    layer1 V c (ix2 r q)
      = max ((∑ k : Fin 128, feat1 V c (ix2 r k) * ws1 V c (ix2 k q) + ∑ k : Fin 128, neigh1 V c (ix2 r k) * wn1 V c (ix2 k q))
        + bias1 V c (ix2 (0 : Fin 1) q)) 0 := rfl

/-- The block index maps over the grid: the two feature windows and the output window are at row block t, column block 0;
    the weight matrices and the bias row are whole, at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of window 0's block at grid point t is row 5000·t + p of its array. -/
theorem rows1_0 (c : Dev nD) (t : Fin cfg1.N) (p : Fin 5000) (k : Fin 128) (r : Fin 100000) (hr : r.val = 5000 * t.val + p.val) :
    (iblk1 V c 0 t : Vec Ideal S5000x128 .f32) (ix2 p k) = feat1 V c (ix2 r k) := by
  obtain ⟨e00, e01, e10, e11, -⟩ := index1 t
  show feat1 V c (((cfg1.win 0).blk t).view.emb (ix2 p k)) = feat1 V c (ix2 r k)
  refine congrArg (feat1 V c) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of window 1's block at grid point t is row 5000·t + p of its array. -/
theorem rows1_1 (c : Dev nD) (t : Fin cfg1.N) (p : Fin 5000) (k : Fin 128) (r : Fin 100000) (hr : r.val = 5000 * t.val + p.val) :
    (iblk1 V c 1 t : Vec Ideal S5000x128 .f32) (ix2 p k) = neigh1 V c (ix2 r k) := by
  obtain ⟨e00, e01, e10, e11, -⟩ := index1 t
  show neigh1 V c (((cfg1.win 1).blk t).view.emb (ix2 p k)) = neigh1 V c (ix2 r k)
  refine congrArg (neigh1 V c) ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Window 2's block at every grid point is its whole array (a weight matrix). -/
theorem whole1_2 (c : Dev nD) (t : Fin cfg1.N) (k : Fin 128) (q : Fin 128) :
    (iblk1 V c 2 t : Vec Ideal S128x128 .f32) (ix2 k q) = ws1 V c (ix2 k q) := by
  obtain ⟨-, -, -, -, e20, e21, e30, e31, -⟩ := index1 t
  show ws1 V c (((cfg1.win 2).blk t).view.emb (ix2 k q)) = ws1 V c (ix2 k q)
  refine congrArg (ws1 V c) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Window 3's block at every grid point is its whole array (a weight matrix). -/
theorem whole1_3 (c : Dev nD) (t : Fin cfg1.N) (k : Fin 128) (q : Fin 128) :
    (iblk1 V c 3 t : Vec Ideal S128x128 .f32) (ix2 k q) = wn1 V c (ix2 k q) := by
  obtain ⟨-, -, -, -, e20, e21, e30, e31, -⟩ := index1 t
  show wn1 V c (((cfg1.win 3).blk t).view.emb (ix2 k q)) = wn1 V c (ix2 k q)
  refine congrArg (wn1 V c) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Window 4's block at every grid point is its whole array (the bias row). -/
theorem bias1_4 (c : Dev nD) (t : Fin cfg1.N) (q : Fin 128) :
    (iblk1 V c 4 t : Vec Ideal S1x128 .f32) (ix2 (0 : Fin 1) q) = bias1 V c (ix2 (0 : Fin 1) q) := by
  obtain ⟨-, -, -, -, -, -, -, -, e40, e41, -⟩ := index1 t
  show bias1 V c (((cfg1.win 4).blk t).view.emb (ix2 (0 : Fin 1) q)) = bias1 V c (ix2 (0 : Fin 1) q)
  refine congrArg (bias1 V c) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Entry (p, q) of the output window's block at grid point t sits at (5000·t + p, q) of the output array. -/
theorem outrow1 (t : Fin cfg1.N) (p : Fin 5000) (q : Fin 128) (r : Fin 100000) (hr : r.val = 5000 * t.val + p.val) :
    ((cfg1.win 5).blk t).view.emb (ix2 p q) = (ix2 r q : (⟨2, ![100000, 128]⟩ : Shape).Idx) := by
  obtain ⟨-, -, -, -, -, -, -, -, -, -, e50, e51⟩ := index1 t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed1 (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeros1]
  simp only [View.ld_unit_zero (S := S5000x128) zeros1, View.ld_unit_zero (S := S128x128) zeros1, View.ld_unit_zero (S := S1x128) zeros1]
  funext j
  obtain ⟨p, q, rfl⟩ : ∃ (p : Fin 5000) (q : Fin 128), j = ix2 p q := ⟨j 0, j 1, eq_ix2 j⟩
  have ht : t.val < 20 := lt_of_lt_of_eq t.isLt N_1
  have hr : (⟨5000 * t.val + p.val, by omega⟩ : Fin 100000).val = 5000 * t.val + p.val := rfl
  -- the block's entry is the payload at (p, q)
  refine (congrArg (k1_pay1 (F := Ideal) (iblk1 V c 0 t) (iblk1 V c 1 t) (iblk1 V c 2 t) (iblk1 V c 3 t) (iblk1 V c 4 t))
    (show (win1 5).xinj (grid1.coords t) (ix2 p q) = ix2 p q from
      funext fun a => by match a with | ⟨0, _⟩ => rfl | ⟨1, _⟩ => rfl)).trans ?_
  refine (Body.pay1_apply (iblk1 V c 0 t) (iblk1 V c 1 t) (iblk1 V c 2 t) (iblk1 V c 3 t) (iblk1 V c 4 t) p q).trans ?_
  -- the array index under the block's entry is (5000·t + p, q)
  show _ = layer1 V c (((cfg1.win 5).blk t).view.emb (ix2 p q))
  rw [outrow1 t p q _ hr, layer1_apply]
  -- each input block read where the output's rows say
  exact congrArg (fun z => max z 0) (congrArg₂ (· + ·)
    (congrArg₂ (· + ·) (Finset.sum_congr rfl fun k _ => congrArg₂ (· * ·) (rows1_0 V c t p k _ hr) (whole1_2 V c t k q))
      (Finset.sum_congr rfl fun k _ => congrArg₂ (· * ·) (rows1_1 V c t p k _ hr) (whole1_3 V c t k q))) (bias1_4 V c t q))

/-- An index of the output array is in grid point t's block iff, on each axis, its coordinate is within the block's range. -/
theorem mem_blk1 (t : Fin cfg1.N) (i : (⟨2, ![100000, 128]⟩ : Shape).Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- The 20 row blocks tile the output array: row r is in the block of grid point r / 5000. -/
theorem cover1 (i : (⟨2, ![100000, 128]⟩ : Shape).Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, -, -, e50, e51⟩ := index1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- Once all 20 row blocks are written back, the output array is the layer's map of the entry arrays. -/
theorem array1 (c : Dev nD) : (dat1 (F := Ideal) V c).arrAt 5 cfg1.N = layer1 V c :=
  (dat1 (F := Ideal) V c).arrAt_eq_of_cover 5 (layer1 V c) (fun t _ => flushed1 V c t) cover1

set_option maxHeartbeats 1000000 in
/-- Region 1 (hidden layer 1, with its activation): once all 20 row blocks are written back, the output array is the layer's map of the arrays the
    region found on entry — features, aggregated features, the two weight matrices, and the bias row. -/
theorem final1 (c : Dev nD) :
    (dat1 (F := Ideal) V c).arrAt 5 cfg1.N
      = Cert.Sage.relu (Cert.Sage.dense (D := 128) (V c (Pipeline.arrRef spec1 0)) (V c (Pipeline.arrRef spec1 1)) (V c (Pipeline.arrRef spec1 2))
        (V c (Pipeline.arrRef spec1 3)) (fun i => V c (Pipeline.arrRef spec1 4) (ix2 (0 : Fin 1) (i 0)))) :=
  array1 V c

end Cert.Sage.Region

end
-- ==== Proof.Region2.lean ====
/-
  Region 2 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-! The five arrays the region finds on entry, each as a function of its index: node features, aggregated neighbour
    features, the two weight matrices, the bias row. -/

def feat2 (c : Dev nD) : Feat.Idx → EReal := V c (Pipeline.arrRef spec2 0)
def neigh2 (c : Dev nD) : Feat.Idx → EReal := V c (Pipeline.arrRef spec2 1)
def ws2 (c : Dev nD) : (⟨2, ![128, 128]⟩ : Shape).Idx → EReal := V c (Pipeline.arrRef spec2 2)
def wn2 (c : Dev nD) : (⟨2, ![128, 128]⟩ : Shape).Idx → EReal := V c (Pipeline.arrRef spec2 3)
def bias2 (c : Dev nD) : (⟨2, ![1, 128]⟩ : Shape).Idx → EReal := V c (Pipeline.arrRef spec2 4)

/-- The layer's map of those arrays, as one array. -/
def layer2 (c : Dev nD) : (⟨2, ![100000, 128]⟩ : Shape).Idx → EReal :=
  Cert.Sage.relu (Cert.Sage.dense (D := 128) (feat2 V c) (neigh2 V c) (ws2 V c) (wn2 V c) (fun i => bias2 V c (ix2 (0 : Fin 1) (i 0))))

/-- Its entry at row r, column q. -/
theorem layer2_apply (c : Dev nD) (r : Fin 100000) (q : Fin 128) :
    layer2 V c (ix2 r q)
      = max ((∑ k : Fin 128, feat2 V c (ix2 r k) * ws2 V c (ix2 k q) + ∑ k : Fin 128, neigh2 V c (ix2 r k) * wn2 V c (ix2 k q))
        + bias2 V c (ix2 (0 : Fin 1) q)) 0 := rfl

/-- The block index maps over the grid: the two feature windows and the output window are at row block t, column block 0;
    the weight matrices and the bias row are whole, at block (0, 0). -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of window 0's block at grid point t is row 5000·t + p of its array. -/
theorem rows2_0 (c : Dev nD) (t : Fin cfg2.N) (p : Fin 5000) (k : Fin 128) (r : Fin 100000) (hr : r.val = 5000 * t.val + p.val) :
    (iblk2 V c 0 t : Vec Ideal S5000x128 .f32) (ix2 p k) = feat2 V c (ix2 r k) := by
  obtain ⟨e00, e01, e10, e11, -⟩ := index2 t
  show feat2 V c (((cfg2.win 0).blk t).view.emb (ix2 p k)) = feat2 V c (ix2 r k)
  refine congrArg (feat2 V c) ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- Row p of window 1's block at grid point t is row 5000·t + p of its array. -/
theorem rows2_1 (c : Dev nD) (t : Fin cfg2.N) (p : Fin 5000) (k : Fin 128) (r : Fin 100000) (hr : r.val = 5000 * t.val + p.val) :
    (iblk2 V c 1 t : Vec Ideal S5000x128 .f32) (ix2 p k) = neigh2 V c (ix2 r k) := by
  obtain ⟨e00, e01, e10, e11, -⟩ := index2 t
  show neigh2 V c (((cfg2.win 1).blk t).view.emb (ix2 p k)) = neigh2 V c (ix2 r k)
  refine congrArg (neigh2 V c) ?_
  funext a; apply Fin.ext
  match a with
  | ⟨0, _⟩ => show win2_1.index t (0 : Fin 2) * 5000 + 1 * p.val = r.val; omega
  | ⟨1, _⟩ => show win2_1.index t (1 : Fin 2) * 128 + 1 * k.val = k.val; omega

/-- Window 2's block at every grid point is its whole array (a weight matrix). -/
theorem whole2_2 (c : Dev nD) (t : Fin cfg2.N) (k : Fin 128) (q : Fin 128) :
    (iblk2 V c 2 t : Vec Ideal S128x128 .f32) (ix2 k q) = ws2 V c (ix2 k q) := by
  obtain ⟨-, -, -, -, e20, e21, e30, e31, -⟩ := index2 t
  show ws2 V c (((cfg2.win 2).blk t).view.emb (ix2 k q)) = ws2 V c (ix2 k q)
  refine congrArg (ws2 V c) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- Window 3's block at every grid point is its whole array (a weight matrix). -/
theorem whole2_3 (c : Dev nD) (t : Fin cfg2.N) (k : Fin 128) (q : Fin 128) :
    (iblk2 V c 3 t : Vec Ideal S128x128 .f32) (ix2 k q) = wn2 V c (ix2 k q) := by
  obtain ⟨-, -, -, -, e20, e21, e30, e31, -⟩ := index2 t
  show wn2 V c (((cfg2.win 3).blk t).view.emb (ix2 k q)) = wn2 V c (ix2 k q)
  refine congrArg (wn2 V c) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- Window 4's block at every grid point is its whole array (the bias row). -/
theorem bias2_4 (c : Dev nD) (t : Fin cfg2.N) (q : Fin 128) :
    (iblk2 V c 4 t : Vec Ideal S1x128 .f32) (ix2 (0 : Fin 1) q) = bias2 V c (ix2 (0 : Fin 1) q) := by
  obtain ⟨-, -, -, -, -, -, -, -, e40, e41, -⟩ := index2 t
  show bias2 V c (((cfg2.win 4).blk t).view.emb (ix2 (0 : Fin 1) q)) = bias2 V c (ix2 (0 : Fin 1) q)
  refine congrArg (bias2 V c) ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- Entry (p, q) of the output window's block at grid point t sits at (5000·t + p, q) of the output array. -/
theorem outrow2 (t : Fin cfg2.N) (p : Fin 5000) (q : Fin 128) (r : Fin 100000) (hr : r.val = 5000 * t.val + p.val) :
    ((cfg2.win 5).blk t).view.emb (ix2 p q) = (ix2 r q : (⟨2, ![100000, 128]⟩ : Shape).Idx) := by
  obtain ⟨-, -, -, -, -, -, -, -, -, -, e50, e51⟩ := index2 t
  funext a; apply Fin.ext
  match a with
  | ⟨0, _⟩ => show win2_5.index t (0 : Fin 2) * 5000 + 1 * p.val = r.val; omega
  | ⟨1, _⟩ => show win2_5.index t (1 : Fin 2) * 128 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed2 (c : Dev nD) (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x128) zeros2, View.ld_unit_zero (S := S1x128) zeros2]
  funext j
  obtain ⟨p, q, rfl⟩ : ∃ (p : Fin 5000) (q : Fin 128), j = ix2 p q := ⟨j 0, j 1, eq_ix2 j⟩
  have ht : t.val < 20 := lt_of_lt_of_eq t.isLt N_2
  have hr : (⟨5000 * t.val + p.val, by omega⟩ : Fin 100000).val = 5000 * t.val + p.val := rfl
  -- the block's entry is the payload at (p, q)
  refine (congrArg (k2_pay1 (F := Ideal) (iblk2 V c 0 t) (iblk2 V c 1 t) (iblk2 V c 2 t) (iblk2 V c 3 t) (iblk2 V c 4 t))
    (show (win2 5).xinj (grid2.coords t) (ix2 p q) = ix2 p q from
      funext fun a => by match a with | ⟨0, _⟩ => rfl | ⟨1, _⟩ => rfl)).trans ?_
  refine (Body.pay2_apply (iblk2 V c 0 t) (iblk2 V c 1 t) (iblk2 V c 2 t) (iblk2 V c 3 t) (iblk2 V c 4 t) p q).trans ?_
  -- the array index under the block's entry is (5000·t + p, q)
  show _ = layer2 V c (((cfg2.win 5).blk t).view.emb (ix2 p q))
  rw [outrow2 t p q _ hr, layer2_apply]
  -- each input block read where the output's rows say
  exact congrArg (fun z => max z 0) (congrArg₂ (· + ·)
    (congrArg₂ (· + ·) (Finset.sum_congr rfl fun k _ => congrArg₂ (· * ·) (rows2_0 V c t p k _ hr) (whole2_2 V c t k q))
      (Finset.sum_congr rfl fun k _ => congrArg₂ (· * ·) (rows2_1 V c t p k _ hr) (whole2_3 V c t k q))) (bias2_4 V c t q))

/-- An index of the output array is in grid point t's block iff, on each axis, its coordinate is within the block's range. -/
theorem mem_blk2 (t : Fin cfg2.N) (i : (⟨2, ![100000, 128]⟩ : Shape).Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v70).slice (win2_5.rect t)).set ↔ _
  rw [View.set_slice_whole, Rect.mem_set_unit]
  exact Iff.rfl

/-- The 20 row blocks tile the output array: row r is in the block of grid point r / 5000. -/
theorem cover2 (i : (⟨2, ![100000, 128]⟩ : Shape).Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, -, -, e50, e51⟩ := index2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- Once all 20 row blocks are written back, the output array is the layer's map of the entry arrays. -/
theorem array2 (c : Dev nD) : (dat2 (F := Ideal) V c).arrAt 5 cfg2.N = layer2 V c :=
  (dat2 (F := Ideal) V c).arrAt_eq_of_cover 5 (layer2 V c) (fun t _ => flushed2 V c t) cover2

set_option maxHeartbeats 1000000 in
/-- Region 2 (hidden layer 2, with its activation): once all 20 row blocks are written back, the output array is the layer's map of the arrays the
    region found on entry — features, aggregated features, the two weight matrices, and the bias row. -/
theorem final2 (c : Dev nD) :
    (dat2 (F := Ideal) V c).arrAt 5 cfg2.N
      = Cert.Sage.relu (Cert.Sage.dense (D := 128) (V c (Pipeline.arrRef spec2 0)) (V c (Pipeline.arrRef spec2 1)) (V c (Pipeline.arrRef spec2 2))
        (V c (Pipeline.arrRef spec2 3)) (fun i => V c (Pipeline.arrRef spec2 4) (ix2 (0 : Fin 1) (i 0)))) :=
  array2 V c

end Cert.Sage.Region

end
-- ==== Proof.Region3.lean ====
/-
  Region 3 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros3 : (![0, 0] : Fin 2 → Nat) = fun _ => 0 := funext fun a => by fin_cases a <;> rfl

/-! The five arrays the region finds on entry, each as a function of its index: node features, aggregated neighbour
    features, the two weight matrices, the bias row. -/

def feat3 (c : Dev nD) : Feat.Idx → EReal := V c (Pipeline.arrRef spec3 0)
def neigh3 (c : Dev nD) : Feat.Idx → EReal := V c (Pipeline.arrRef spec3 1)
def ws3 (c : Dev nD) : (⟨2, ![128, 128]⟩ : Shape).Idx → EReal := V c (Pipeline.arrRef spec3 2)
def wn3 (c : Dev nD) : (⟨2, ![128, 128]⟩ : Shape).Idx → EReal := V c (Pipeline.arrRef spec3 3)
def bias3 (c : Dev nD) : (⟨2, ![1, 128]⟩ : Shape).Idx → EReal := V c (Pipeline.arrRef spec3 4)

/-- The layer's map of those arrays, as one array. -/
def layer3 (c : Dev nD) : (⟨2, ![100000, 128]⟩ : Shape).Idx → EReal :=
  Cert.Sage.relu (Cert.Sage.dense (D := 128) (feat3 V c) (neigh3 V c) (ws3 V c) (wn3 V c) (fun i => bias3 V c (ix2 (0 : Fin 1) (i 0))))

/-- Its entry at row r, column q. -/
theorem layer3_apply (c : Dev nD) (r : Fin 100000) (q : Fin 128) :
    layer3 V c (ix2 r q)
      = max ((∑ k : Fin 128, feat3 V c (ix2 r k) * ws3 V c (ix2 k q) + ∑ k : Fin 128, neigh3 V c (ix2 r k) * wn3 V c (ix2 k q))
        + bias3 V c (ix2 (0 : Fin 1) q)) 0 := rfl

/-- The block index maps over the grid: the two feature windows and the output window are at row block t, column block 0;
    the weight matrices and the bias row are whole, at block (0, 0). -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of window 0's block at grid point t is row 5000·t + p of its array. -/
theorem rows3_0 (c : Dev nD) (t : Fin cfg3.N) (p : Fin 5000) (k : Fin 128) (r : Fin 100000) (hr : r.val = 5000 * t.val + p.val) :
    (iblk3 V c 0 t : Vec Ideal S5000x128 .f32) (ix2 p k) = feat3 V c (ix2 r k) := by
  obtain ⟨e00, e01, e10, e11, -⟩ := index3 t
  show feat3 V c (((cfg3.win 0).blk t).view.emb (ix2 p k)) = feat3 V c (ix2 r k)
  refine congrArg (feat3 V c) ?_
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

/-- Row p of window 1's block at grid point t is row 5000·t + p of its array. -/
theorem rows3_1 (c : Dev nD) (t : Fin cfg3.N) (p : Fin 5000) (k : Fin 128) (r : Fin 100000) (hr : r.val = 5000 * t.val + p.val) :
    (iblk3 V c 1 t : Vec Ideal S5000x128 .f32) (ix2 p k) = neigh3 V c (ix2 r k) := by
  obtain ⟨e00, e01, e10, e11, -⟩ := index3 t
  show neigh3 V c (((cfg3.win 1).blk t).view.emb (ix2 p k)) = neigh3 V c (ix2 r k)
  refine congrArg (neigh3 V c) ?_
  funext a; apply Fin.ext
  match a with
  | ⟨0, _⟩ => show win3_1.index t (0 : Fin 2) * 5000 + 1 * p.val = r.val; omega
  | ⟨1, _⟩ => show win3_1.index t (1 : Fin 2) * 128 + 1 * k.val = k.val; omega

/-- Window 2's block at every grid point is its whole array (a weight matrix). -/
theorem whole3_2 (c : Dev nD) (t : Fin cfg3.N) (k : Fin 128) (q : Fin 128) :
    (iblk3 V c 2 t : Vec Ideal S128x128 .f32) (ix2 k q) = ws3 V c (ix2 k q) := by
  obtain ⟨-, -, -, -, e20, e21, e30, e31, -⟩ := index3 t
  show ws3 V c (((cfg3.win 2).blk t).view.emb (ix2 k q)) = ws3 V c (ix2 k q)
  refine congrArg (ws3 V c) ?_
  funext a; apply Fin.ext
  match a with
  | ⟨0, _⟩ => show win3_2.index t (0 : Fin 2) * 128 + 1 * k.val = k.val; omega
  | ⟨1, _⟩ => show win3_2.index t (1 : Fin 2) * 128 + 1 * q.val = q.val; omega

/-- Window 3's block at every grid point is its whole array (a weight matrix). -/
theorem whole3_3 (c : Dev nD) (t : Fin cfg3.N) (k : Fin 128) (q : Fin 128) :
    (iblk3 V c 3 t : Vec Ideal S128x128 .f32) (ix2 k q) = wn3 V c (ix2 k q) := by
  obtain ⟨-, -, -, -, e20, e21, e30, e31, -⟩ := index3 t
  show wn3 V c (((cfg3.win 3).blk t).view.emb (ix2 k q)) = wn3 V c (ix2 k q)
  refine congrArg (wn3 V c) ?_
  funext a; apply Fin.ext
  match a with
  | ⟨0, _⟩ => show win3_3.index t (0 : Fin 2) * 128 + 1 * k.val = k.val; omega
  | ⟨1, _⟩ => show win3_3.index t (1 : Fin 2) * 128 + 1 * q.val = q.val; omega

/-- Window 4's block at every grid point is its whole array (the bias row). -/
theorem bias3_4 (c : Dev nD) (t : Fin cfg3.N) (q : Fin 128) :
    (iblk3 V c 4 t : Vec Ideal S1x128 .f32) (ix2 (0 : Fin 1) q) = bias3 V c (ix2 (0 : Fin 1) q) := by
  obtain ⟨-, -, -, -, -, -, -, -, e40, e41, -⟩ := index3 t
  show bias3 V c (((cfg3.win 4).blk t).view.emb (ix2 (0 : Fin 1) q)) = bias3 V c (ix2 (0 : Fin 1) q)
  refine congrArg (bias3 V c) ?_
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- Entry (p, q) of the output window's block at grid point t sits at (5000·t + p, q) of the output array. -/
theorem outrow3 (t : Fin cfg3.N) (p : Fin 5000) (q : Fin 128) (r : Fin 100000) (hr : r.val = 5000 * t.val + p.val) :
    ((cfg3.win 5).blk t).view.emb (ix2 p q) = (ix2 r q : (⟨2, ![100000, 128]⟩ : Shape).Idx) := by
  obtain ⟨-, -, -, -, -, -, -, -, -, -, e50, e51⟩ := index3 t
  funext a; apply Fin.ext
  match a with
  | ⟨0, _⟩ => show win3_5.index t (0 : Fin 2) * 5000 + 1 * p.val = r.val; omega
  | ⟨1, _⟩ => show win3_5.index t (1 : Fin 2) * 128 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed3 (c : Dev nD) (t : Fin cfg3.N) :
    (dat3 (F := Ideal) V c).flushed 5 t = ((cfg3.win 5).blk t).view.read (Elt Ideal) (layer3 V c) := by
  show (cfg3.win 5).cut (grid3.coords t) ((dat3 V c).after 5 t) = _
  rw [after3_5]
  unfold out3_5
  rw [View.canon_unit_zero zeros3]
  simp only [View.ld_unit_zero (S := S5000x128) zeros3, View.ld_unit_zero (S := S128x128) zeros3, View.ld_unit_zero (S := S1x128) zeros3]
  funext j
  obtain ⟨p, q, rfl⟩ : ∃ (p : Fin 5000) (q : Fin 128), j = ix2 p q := ⟨j 0, j 1, eq_ix2 j⟩
  have ht : t.val < 20 := lt_of_lt_of_eq t.isLt N_3
  have hr : (⟨5000 * t.val + p.val, by omega⟩ : Fin 100000).val = 5000 * t.val + p.val := rfl
  -- the block's entry is the payload at (p, q)
  refine (congrArg (k3_pay1 (F := Ideal) (iblk3 V c 0 t) (iblk3 V c 1 t) (iblk3 V c 2 t) (iblk3 V c 3 t) (iblk3 V c 4 t))
    (show (win3 5).xinj (grid3.coords t) (ix2 p q) = ix2 p q from
      funext fun a => by match a with | ⟨0, _⟩ => rfl | ⟨1, _⟩ => rfl)).trans ?_
  refine (Body.pay3_apply (iblk3 V c 0 t) (iblk3 V c 1 t) (iblk3 V c 2 t) (iblk3 V c 3 t) (iblk3 V c 4 t) p q).trans ?_
  -- the array index under the block's entry is (5000·t + p, q)
  show _ = layer3 V c (((cfg3.win 5).blk t).view.emb (ix2 p q))
  rw [outrow3 t p q _ hr, layer3_apply]
  -- each input block read where the output's rows say
  exact congrArg (fun z => max z 0) (congrArg₂ (· + ·)
    (congrArg₂ (· + ·) (Finset.sum_congr rfl fun k _ => congrArg₂ (· * ·) (rows3_0 V c t p k _ hr) (whole3_2 V c t k q))
      (Finset.sum_congr rfl fun k _ => congrArg₂ (· * ·) (rows3_1 V c t p k _ hr) (whole3_3 V c t k q))) (bias3_4 V c t q))

/-- An index of the output array is in grid point t's block iff, on each axis, its coordinate is within the block's range. -/
theorem mem_blk3 (t : Fin cfg3.N) (i : (⟨2, ![100000, 128]⟩ : Shape).Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v91).slice (win3_5.rect t)).set ↔ _
  rw [View.set_slice_whole, Rect.mem_set_unit]
  exact Iff.rfl

/-- The 20 row blocks tile the output array: row r is in the block of grid point r / 5000. -/
theorem cover3 (i : (⟨2, ![100000, 128]⟩ : Shape).Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega) N_3.symm⟩, rfl⟩
  obtain ⟨-, -, -, -, -, -, -, -, -, -, e50, e51⟩ := index3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- Once all 20 row blocks are written back, the output array is the layer's map of the entry arrays. -/
theorem array3 (c : Dev nD) : (dat3 (F := Ideal) V c).arrAt 5 cfg3.N = layer3 V c :=
  (dat3 (F := Ideal) V c).arrAt_eq_of_cover 5 (layer3 V c) (fun t _ => flushed3 V c t) cover3

set_option maxHeartbeats 1000000 in
/-- Region 3 (hidden layer 3, with its activation): once all 20 row blocks are written back, the output array is the layer's map of the arrays the
    region found on entry — features, aggregated features, the two weight matrices, and the bias row. -/
theorem final3 (c : Dev nD) :
    (dat3 (F := Ideal) V c).arrAt 5 cfg3.N
      = Cert.Sage.relu (Cert.Sage.dense (D := 128) (V c (Pipeline.arrRef spec3 0)) (V c (Pipeline.arrRef spec3 1)) (V c (Pipeline.arrRef spec3 2))
        (V c (Pipeline.arrRef spec3 3)) (fun i => V c (Pipeline.arrRef spec3 4) (ix2 (0 : Fin 1) (i 0)))) :=
  array3 V c

end Cert.Sage.Region

end
-- ==== Proof.Region4.lean ====
/-
  Region 4 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros4 : (![0, 0] : Fin 2 → Nat) = fun _ => 0 := funext fun a => by fin_cases a <;> rfl

/-! The five arrays the region finds on entry, each as a function of its index: node features, aggregated neighbour
    features, the two weight matrices, the bias row. -/

def feat4 (c : Dev nD) : Feat.Idx → EReal := V c (Pipeline.arrRef spec4 0)
def neigh4 (c : Dev nD) : Feat.Idx → EReal := V c (Pipeline.arrRef spec4 1)
def ws4 (c : Dev nD) : (⟨2, ![128, 128]⟩ : Shape).Idx → EReal := V c (Pipeline.arrRef spec4 2)
def wn4 (c : Dev nD) : (⟨2, ![128, 128]⟩ : Shape).Idx → EReal := V c (Pipeline.arrRef spec4 3)
def bias4 (c : Dev nD) : (⟨2, ![1, 128]⟩ : Shape).Idx → EReal := V c (Pipeline.arrRef spec4 4)

/-- The layer's map of those arrays, as one array. -/
def layer4 (c : Dev nD) : (⟨2, ![100000, 128]⟩ : Shape).Idx → EReal :=
  Cert.Sage.relu (Cert.Sage.dense (D := 128) (feat4 V c) (neigh4 V c) (ws4 V c) (wn4 V c) (fun i => bias4 V c (ix2 (0 : Fin 1) (i 0))))

/-- Its entry at row r, column q. -/
theorem layer4_apply (c : Dev nD) (r : Fin 100000) (q : Fin 128) :
    layer4 V c (ix2 r q)
      = max ((∑ k : Fin 128, feat4 V c (ix2 r k) * ws4 V c (ix2 k q) + ∑ k : Fin 128, neigh4 V c (ix2 r k) * wn4 V c (ix2 k q))
        + bias4 V c (ix2 (0 : Fin 1) q)) 0 := rfl

/-- The block index maps over the grid: the two feature windows and the output window are at row block t, column block 0;
    the weight matrices and the bias row are whole, at block (0, 0). -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of window 0's block at grid point t is row 5000·t + p of its array. -/
theorem rows4_0 (c : Dev nD) (t : Fin cfg4.N) (p : Fin 5000) (k : Fin 128) (r : Fin 100000) (hr : r.val = 5000 * t.val + p.val) :
    (iblk4 V c 0 t : Vec Ideal S5000x128 .f32) (ix2 p k) = feat4 V c (ix2 r k) := by
  obtain ⟨e00, e01, e10, e11, -⟩ := index4 t
  show feat4 V c (((cfg4.win 0).blk t).view.emb (ix2 p k)) = feat4 V c (ix2 r k)
  refine congrArg (feat4 V c) ?_
  funext a; apply Fin.ext
  match a with
  | ⟨0, _⟩ => show win4_0.index t (0 : Fin 2) * 5000 + 1 * p.val = r.val; omega
  | ⟨1, _⟩ => show win4_0.index t (1 : Fin 2) * 128 + 1 * k.val = k.val; omega

/-- Row p of window 1's block at grid point t is row 5000·t + p of its array. -/
theorem rows4_1 (c : Dev nD) (t : Fin cfg4.N) (p : Fin 5000) (k : Fin 128) (r : Fin 100000) (hr : r.val = 5000 * t.val + p.val) :
    (iblk4 V c 1 t : Vec Ideal S5000x128 .f32) (ix2 p k) = neigh4 V c (ix2 r k) := by
  obtain ⟨e00, e01, e10, e11, -⟩ := index4 t
  show neigh4 V c (((cfg4.win 1).blk t).view.emb (ix2 p k)) = neigh4 V c (ix2 r k)
  refine congrArg (neigh4 V c) ?_
  funext a; apply Fin.ext
  match a with
  | ⟨0, _⟩ => show win4_1.index t (0 : Fin 2) * 5000 + 1 * p.val = r.val; omega
  | ⟨1, _⟩ => show win4_1.index t (1 : Fin 2) * 128 + 1 * k.val = k.val; omega

/-- Window 2's block at every grid point is its whole array (a weight matrix). -/
theorem whole4_2 (c : Dev nD) (t : Fin cfg4.N) (k : Fin 128) (q : Fin 128) :
    (iblk4 V c 2 t : Vec Ideal S128x128 .f32) (ix2 k q) = ws4 V c (ix2 k q) := by
  obtain ⟨-, -, -, -, e20, e21, e30, e31, -⟩ := index4 t
  show ws4 V c (((cfg4.win 2).blk t).view.emb (ix2 k q)) = ws4 V c (ix2 k q)
  refine congrArg (ws4 V c) ?_
  funext a; apply Fin.ext
  match a with
  | ⟨0, _⟩ => show win4_2.index t (0 : Fin 2) * 128 + 1 * k.val = k.val; omega
  | ⟨1, _⟩ => show win4_2.index t (1 : Fin 2) * 128 + 1 * q.val = q.val; omega

/-- Window 3's block at every grid point is its whole array (a weight matrix). -/
theorem whole4_3 (c : Dev nD) (t : Fin cfg4.N) (k : Fin 128) (q : Fin 128) :
    (iblk4 V c 3 t : Vec Ideal S128x128 .f32) (ix2 k q) = wn4 V c (ix2 k q) := by
  obtain ⟨-, -, -, -, e20, e21, e30, e31, -⟩ := index4 t
  show wn4 V c (((cfg4.win 3).blk t).view.emb (ix2 k q)) = wn4 V c (ix2 k q)
  refine congrArg (wn4 V c) ?_
  funext a; apply Fin.ext
  match a with
  | ⟨0, _⟩ => show win4_3.index t (0 : Fin 2) * 128 + 1 * k.val = k.val; omega
  | ⟨1, _⟩ => show win4_3.index t (1 : Fin 2) * 128 + 1 * q.val = q.val; omega

/-- Window 4's block at every grid point is its whole array (the bias row). -/
theorem bias4_4 (c : Dev nD) (t : Fin cfg4.N) (q : Fin 128) :
    (iblk4 V c 4 t : Vec Ideal S1x128 .f32) (ix2 (0 : Fin 1) q) = bias4 V c (ix2 (0 : Fin 1) q) := by
  obtain ⟨-, -, -, -, -, -, -, -, e40, e41, -⟩ := index4 t
  show bias4 V c (((cfg4.win 4).blk t).view.emb (ix2 (0 : Fin 1) q)) = bias4 V c (ix2 (0 : Fin 1) q)
  refine congrArg (bias4 V c) ?_
  funext a; apply Fin.ext
  match a with
  | ⟨0, _⟩ => show win4_4.index t (0 : Fin 2) * 1 + 1 * 0 = 0; omega
  | ⟨1, _⟩ => show win4_4.index t (1 : Fin 2) * 128 + 1 * q.val = q.val; omega

/-- Entry (p, q) of the output window's block at grid point t sits at (5000·t + p, q) of the output array. -/
theorem outrow4 (t : Fin cfg4.N) (p : Fin 5000) (q : Fin 128) (r : Fin 100000) (hr : r.val = 5000 * t.val + p.val) :
    ((cfg4.win 5).blk t).view.emb (ix2 p q) = (ix2 r q : (⟨2, ![100000, 128]⟩ : Shape).Idx) := by
  obtain ⟨-, -, -, -, -, -, -, -, -, -, e50, e51⟩ := index4 t
  funext a; apply Fin.ext
  match a with
  | ⟨0, _⟩ => show win4_5.index t (0 : Fin 2) * 5000 + 1 * p.val = r.val; omega
  | ⟨1, _⟩ => show win4_5.index t (1 : Fin 2) * 128 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed4 (c : Dev nD) (t : Fin cfg4.N) :
    (dat4 (F := Ideal) V c).flushed 5 t = ((cfg4.win 5).blk t).view.read (Elt Ideal) (layer4 V c) := by
  show (cfg4.win 5).cut (grid4.coords t) ((dat4 V c).after 5 t) = _
  rw [after4_5]
  unfold out4_5
  rw [View.canon_unit_zero zeros4]
  simp only [View.ld_unit_zero (S := S5000x128) zeros4, View.ld_unit_zero (S := S128x128) zeros4, View.ld_unit_zero (S := S1x128) zeros4]
  funext j
  obtain ⟨p, q, rfl⟩ : ∃ (p : Fin 5000) (q : Fin 128), j = ix2 p q := ⟨j 0, j 1, eq_ix2 j⟩
  have ht : t.val < 20 := lt_of_lt_of_eq t.isLt N_4
  have hr : (⟨5000 * t.val + p.val, by omega⟩ : Fin 100000).val = 5000 * t.val + p.val := rfl
  -- the block's entry is the payload at (p, q)
  refine (congrArg (k4_pay1 (F := Ideal) (iblk4 V c 0 t) (iblk4 V c 1 t) (iblk4 V c 2 t) (iblk4 V c 3 t) (iblk4 V c 4 t))
    (show (win4 5).xinj (grid4.coords t) (ix2 p q) = ix2 p q from
      funext fun a => by match a with | ⟨0, _⟩ => rfl | ⟨1, _⟩ => rfl)).trans ?_
  refine (Body.pay4_apply (iblk4 V c 0 t) (iblk4 V c 1 t) (iblk4 V c 2 t) (iblk4 V c 3 t) (iblk4 V c 4 t) p q).trans ?_
  -- the array index under the block's entry is (5000·t + p, q)
  show _ = layer4 V c (((cfg4.win 5).blk t).view.emb (ix2 p q))
  rw [outrow4 t p q _ hr, layer4_apply]
  -- each input block read where the output's rows say
  exact congrArg (fun z => max z 0) (congrArg₂ (· + ·)
    (congrArg₂ (· + ·) (Finset.sum_congr rfl fun k _ => congrArg₂ (· * ·) (rows4_0 V c t p k _ hr) (whole4_2 V c t k q))
      (Finset.sum_congr rfl fun k _ => congrArg₂ (· * ·) (rows4_1 V c t p k _ hr) (whole4_3 V c t k q))) (bias4_4 V c t q))

/-- An index of the output array is in grid point t's block iff, on each axis, its coordinate is within the block's range. -/
theorem mem_blk4 (t : Fin cfg4.N) (i : (⟨2, ![100000, 128]⟩ : Shape).Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v112).slice (win4_5.rect t)).set ↔ _
  rw [View.set_slice_whole, Rect.mem_set_unit]
  exact Iff.rfl

/-- The 20 row blocks tile the output array: row r is in the block of grid point r / 5000. -/
theorem cover4 (i : (⟨2, ![100000, 128]⟩ : Shape).Idx) :
    ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, -, -, -, -, -, -, e50, e51⟩ := index4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- Once all 20 row blocks are written back, the output array is the layer's map of the entry arrays. -/
theorem array4 (c : Dev nD) : (dat4 (F := Ideal) V c).arrAt 5 cfg4.N = layer4 V c :=
  (dat4 (F := Ideal) V c).arrAt_eq_of_cover 5 (layer4 V c) (fun t _ => flushed4 V c t) cover4

set_option maxHeartbeats 1000000 in
/-- Region 4 (hidden layer 4, with its activation): once all 20 row blocks are written back, the output array is the layer's map of the arrays the
    region found on entry — features, aggregated features, the two weight matrices, and the bias row. -/
theorem final4 (c : Dev nD) :
    (dat4 (F := Ideal) V c).arrAt 5 cfg4.N
      = Cert.Sage.relu (Cert.Sage.dense (D := 128) (V c (Pipeline.arrRef spec4 0)) (V c (Pipeline.arrRef spec4 1)) (V c (Pipeline.arrRef spec4 2))
        (V c (Pipeline.arrRef spec4 3)) (fun i => V c (Pipeline.arrRef spec4 4) (ix2 (0 : Fin 1) (i 0)))) :=
  array4 V c

end Cert.Sage.Region

end
-- ==== Proof.Region5.lean ====
/-
  Region 5 read as a whole: each of its 20 grid points writes back rows 5000·t … 5000·t + 4999 of one function of the
  arrays the region found on entry, and these row blocks tile the 100000 rows, so the output array ends at that function.
-/
import proofs.«156612_j90675349553219_1_alg».proof.Proof.Gen.KernelIdeal.Frame
import proofs.«156612_j90675349553219_1_alg».proof.Proof.Spec
import proofs.«156612_j90675349553219_1_alg».proof.Proof.RegionBody
import Idealize.ShloMosaic.Lib.Pipeline.Value

noncomputable section

open scoped BigOperators

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros5 : (![0, 0] : Fin 2 → Nat) = fun _ => 0 := funext fun a => by fin_cases a <;> rfl

/-! The five arrays the region finds on entry, each as a function of its index: node features, aggregated neighbour
    features, the two weight matrices, the bias row. -/

def feat5 (c : Dev nD) : Feat.Idx → EReal := V c (Pipeline.arrRef spec5 0)
def neigh5 (c : Dev nD) : Feat.Idx → EReal := V c (Pipeline.arrRef spec5 1)
def ws5 (c : Dev nD) : (⟨2, ![128, 47]⟩ : Shape).Idx → EReal := V c (Pipeline.arrRef spec5 2)
def wn5 (c : Dev nD) : (⟨2, ![128, 47]⟩ : Shape).Idx → EReal := V c (Pipeline.arrRef spec5 3)
def bias5 (c : Dev nD) : (⟨2, ![1, 47]⟩ : Shape).Idx → EReal := V c (Pipeline.arrRef spec5 4)

/-- The layer's map of those arrays, as one array. -/
def layer5 (c : Dev nD) : (⟨2, ![100000, 47]⟩ : Shape).Idx → EReal :=
  Cert.Sage.dense (D := 47) (feat5 V c) (neigh5 V c) (ws5 V c) (wn5 V c) (fun i => bias5 V c (ix2 (0 : Fin 1) (i 0)))

/-- Its entry at row r, column q. -/
theorem layer5_apply (c : Dev nD) (r : Fin 100000) (q : Fin 47) :
    layer5 V c (ix2 r q)
      = (∑ k : Fin 128, feat5 V c (ix2 r k) * ws5 V c (ix2 k q) + ∑ k : Fin 128, neigh5 V c (ix2 r k) * wn5 V c (ix2 k q))
        + bias5 V c (ix2 (0 : Fin 1) q) := rfl

/-- The block index maps over the grid: the two feature windows and the output window are at row block t, column block 0;
    the weight matrices and the bias row are whole, at block (0, 0). -/
theorem index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row p of window 0's block at grid point t is row 5000·t + p of its array. -/
theorem rows5_0 (c : Dev nD) (t : Fin cfg5.N) (p : Fin 5000) (k : Fin 128) (r : Fin 100000) (hr : r.val = 5000 * t.val + p.val) :
    (iblk5 V c 0 t : Vec Ideal S5000x128 .f32) (ix2 p k) = feat5 V c (ix2 r k) := by
  obtain ⟨e00, e01, e10, e11, -⟩ := index5 t
  show feat5 V c (((cfg5.win 0).blk t).view.emb (ix2 p k)) = feat5 V c (ix2 r k)
  refine congrArg (feat5 V c) ?_
  funext a; apply Fin.ext
  match a with
  | ⟨0, _⟩ => show win5_0.index t (0 : Fin 2) * 5000 + 1 * p.val = r.val; omega
  | ⟨1, _⟩ => show win5_0.index t (1 : Fin 2) * 128 + 1 * k.val = k.val; omega

/-- Row p of window 1's block at grid point t is row 5000·t + p of its array. -/
theorem rows5_1 (c : Dev nD) (t : Fin cfg5.N) (p : Fin 5000) (k : Fin 128) (r : Fin 100000) (hr : r.val = 5000 * t.val + p.val) :
    (iblk5 V c 1 t : Vec Ideal S5000x128 .f32) (ix2 p k) = neigh5 V c (ix2 r k) := by
  obtain ⟨e00, e01, e10, e11, -⟩ := index5 t
  show neigh5 V c (((cfg5.win 1).blk t).view.emb (ix2 p k)) = neigh5 V c (ix2 r k)
  refine congrArg (neigh5 V c) ?_
  funext a; apply Fin.ext
  match a with
  | ⟨0, _⟩ => show win5_1.index t (0 : Fin 2) * 5000 + 1 * p.val = r.val; omega
  | ⟨1, _⟩ => show win5_1.index t (1 : Fin 2) * 128 + 1 * k.val = k.val; omega

/-- Window 2's block at every grid point is its whole array (a weight matrix). -/
theorem whole5_2 (c : Dev nD) (t : Fin cfg5.N) (k : Fin 128) (q : Fin 47) :
    (iblk5 V c 2 t : Vec Ideal S128x47 .f32) (ix2 k q) = ws5 V c (ix2 k q) := by
  obtain ⟨-, -, -, -, e20, e21, e30, e31, -⟩ := index5 t
  show ws5 V c (((cfg5.win 2).blk t).view.emb (ix2 k q)) = ws5 V c (ix2 k q)
  refine congrArg (ws5 V c) ?_
  funext a; apply Fin.ext
  match a with
  | ⟨0, _⟩ => show win5_2.index t (0 : Fin 2) * 128 + 1 * k.val = k.val; omega
  | ⟨1, _⟩ => show win5_2.index t (1 : Fin 2) * 47 + 1 * q.val = q.val; omega

/-- Window 3's block at every grid point is its whole array (a weight matrix). -/
theorem whole5_3 (c : Dev nD) (t : Fin cfg5.N) (k : Fin 128) (q : Fin 47) :
    (iblk5 V c 3 t : Vec Ideal S128x47 .f32) (ix2 k q) = wn5 V c (ix2 k q) := by
  obtain ⟨-, -, -, -, e20, e21, e30, e31, -⟩ := index5 t
  show wn5 V c (((cfg5.win 3).blk t).view.emb (ix2 k q)) = wn5 V c (ix2 k q)
  refine congrArg (wn5 V c) ?_
  funext a; apply Fin.ext
  match a with
  | ⟨0, _⟩ => show win5_3.index t (0 : Fin 2) * 128 + 1 * k.val = k.val; omega
  | ⟨1, _⟩ => show win5_3.index t (1 : Fin 2) * 47 + 1 * q.val = q.val; omega

/-- Window 4's block at every grid point is its whole array (the bias row). -/
theorem bias5_4 (c : Dev nD) (t : Fin cfg5.N) (q : Fin 47) :
    (iblk5 V c 4 t : Vec Ideal S1x47 .f32) (ix2 (0 : Fin 1) q) = bias5 V c (ix2 (0 : Fin 1) q) := by
  obtain ⟨-, -, -, -, -, -, -, -, e40, e41, -⟩ := index5 t
  show bias5 V c (((cfg5.win 4).blk t).view.emb (ix2 (0 : Fin 1) q)) = bias5 V c (ix2 (0 : Fin 1) q)
  refine congrArg (bias5 V c) ?_
  funext a; apply Fin.ext
  match a with
  | ⟨0, _⟩ => show win5_4.index t (0 : Fin 2) * 1 + 1 * 0 = 0; omega
  | ⟨1, _⟩ => show win5_4.index t (1 : Fin 2) * 47 + 1 * q.val = q.val; omega

/-- Entry (p, q) of the output window's block at grid point t sits at (5000·t + p, q) of the output array. -/
theorem outrow5 (t : Fin cfg5.N) (p : Fin 5000) (q : Fin 47) (r : Fin 100000) (hr : r.val = 5000 * t.val + p.val) :
    ((cfg5.win 5).blk t).view.emb (ix2 p q) = (ix2 r q : (⟨2, ![100000, 47]⟩ : Shape).Idx) := by
  obtain ⟨-, -, -, -, -, -, -, -, -, -, e50, e51⟩ := index5 t
  funext a; apply Fin.ext
  match a with
  | ⟨0, _⟩ => show win5_5.index t (0 : Fin 2) * 5000 + 1 * p.val = r.val; omega
  | ⟨1, _⟩ => show win5_5.index t (1 : Fin 2) * 47 + 1 * q.val = q.val; omega

set_option maxHeartbeats 1000000 in
/-- What grid point t writes back is rows 5000·t … 5000·t + 4999 of the layer's map of the entry arrays: entry (p, q) of
    the block is the payload at (p, q), whose two feature blocks are rows 5000·t + p of the feature arrays and whose
    weight and bias blocks are the whole arrays. -/
theorem flushed5 (c : Dev nD) (t : Fin cfg5.N) :
    (dat5 (F := Ideal) V c).flushed 5 t = ((cfg5.win 5).blk t).view.read (Elt Ideal) (layer5 V c) := by
  show (cfg5.win 5).cut (grid5.coords t) ((dat5 V c).after 5 t) = _
  rw [after5_5]
  unfold out5_5
  rw [View.canon_unit_zero zeros5]
  simp only [View.ld_unit_zero (S := S5000x128) zeros5, View.ld_unit_zero (S := S128x47) zeros5, View.ld_unit_zero (S := S1x47) zeros5]
  funext j
  obtain ⟨p, q, rfl⟩ : ∃ (p : Fin 5000) (q : Fin 47), j = ix2 p q := ⟨j 0, j 1, eq_ix2 j⟩
  have ht : t.val < 20 := lt_of_lt_of_eq t.isLt N_5
  have hr : (⟨5000 * t.val + p.val, by omega⟩ : Fin 100000).val = 5000 * t.val + p.val := rfl
  -- the block's entry is the payload at (p, q)
  refine (congrArg (k5_pay1 (F := Ideal) (iblk5 V c 0 t) (iblk5 V c 1 t) (iblk5 V c 2 t) (iblk5 V c 3 t) (iblk5 V c 4 t))
    (show (win5 5).xinj (grid5.coords t) (ix2 p q) = ix2 p q from
      funext fun a => by match a with | ⟨0, _⟩ => rfl | ⟨1, _⟩ => rfl)).trans ?_
  refine (Body.pay5_apply (iblk5 V c 0 t) (iblk5 V c 1 t) (iblk5 V c 2 t) (iblk5 V c 3 t) (iblk5 V c 4 t) p q).trans ?_
  -- the array index under the block's entry is (5000·t + p, q)
  show _ = layer5 V c (((cfg5.win 5).blk t).view.emb (ix2 p q))
  rw [outrow5 t p q _ hr, layer5_apply]
  -- each input block read where the output's rows say
  exact (congrArg₂ (· + ·)
    (congrArg₂ (· + ·) (Finset.sum_congr rfl fun k _ => congrArg₂ (· * ·) (rows5_0 V c t p k _ hr) (whole5_2 V c t k q))
      (Finset.sum_congr rfl fun k _ => congrArg₂ (· * ·) (rows5_1 V c t p k _ hr) (whole5_3 V c t k q))) (bias5_4 V c t q))

/-- An index of the output array is in grid point t's block iff, on each axis, its coordinate is within the block's range. -/
theorem mem_blk5 (t : Fin cfg5.N) (i : (⟨2, ![100000, 47]⟩ : Shape).Idx) :
    i ∈ ((cfg5.win 5).blk t).view.set ↔ ∀ a : Fin 2, win5_5.index t a * S5000x47.size a ≤ (i a).val
      ∧ (i a).val < win5_5.index t a * S5000x47.size a + S5000x47.size a := by
  show i ∈ ((View.whole main_v127).slice (win5_5.rect t)).set ↔ _
  rw [View.set_slice_whole, Rect.mem_set_unit]
  exact Iff.rfl

/-- The 20 row blocks tile the output array: row r is in the block of grid point r / 5000. -/
theorem cover5 (i : (⟨2, ![100000, 47]⟩ : Shape).Idx) :
    ∃ t : Fin cfg5.N, (cfg5.win 5).flush t = true ∧ i ∈ ((cfg5.win 5).blk t).view.set := by
  have hi0 : (i 0).val < 100000 := (i 0).isLt
  have hi1 : (i 1).val < 47 := (i 1).isLt
  obtain ⟨t, ht⟩ : ∃ t : Fin cfg5.N, t.val = (i 0).val / 5000 :=
    ⟨⟨(i 0).val / 5000, lt_of_lt_of_eq (by omega) N_5.symm⟩, rfl⟩
  obtain ⟨-, -, -, -, -, -, -, -, -, -, e50, e51⟩ := index5 t
  refine ⟨t, flush5_5 t, ?_⟩
  rw [mem_blk5]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 47 ≤ (i 1).val ∧ (i 1).val < win5_5.index t (1 : Fin 2) * 47 + 47
    omega

/-- Once all 20 row blocks are written back, the output array is the layer's map of the entry arrays. -/
theorem array5 (c : Dev nD) : (dat5 (F := Ideal) V c).arrAt 5 cfg5.N = layer5 V c :=
  (dat5 (F := Ideal) V c).arrAt_eq_of_cover 5 (layer5 V c) (fun t _ => flushed5 V c t) cover5

set_option maxHeartbeats 1000000 in
/-- Region 5 (the output layer, 47 columns, no activation): once all 20 row blocks are written back, the output array is the layer's map of the arrays the
    region found on entry — features, aggregated features, the two weight matrices, and the bias row. -/
theorem final5 (c : Dev nD) :
    (dat5 (F := Ideal) V c).arrAt 5 cfg5.N
      = Cert.Sage.dense (D := 47) (V c (Pipeline.arrRef spec5 0)) (V c (Pipeline.arrRef spec5 1)) (V c (Pipeline.arrRef spec5 2))
        (V c (Pipeline.arrRef spec5 3)) (fun i => V c (Pipeline.arrRef spec5 4) (ix2 (0 : Fin 1) (i 0))) :=
  array5 V c

end Cert.Sage.Region

end
-- ==== Proof.RegionsStated.lean ====
/-
  Each pallas_call region, read as a whole: its 20 row blocks of 5000 rows tile the 100000 output rows, every block
  is the layer's affine map (and, for the hidden layers, the maximum with zero) of the matching rows of the two input
  arrays against the whole weight matrices and bias, so the array the region leaves is that map of the whole arrays.

  One module per region: Region0 … Region5 state and prove final0 … final5 (layer 0 without activation, hidden
  layers 1 to 4 with it, the 47-column output layer without), each from the payload read at an index (RegionBody).
-/
import proofs.«156612_j90675349553219_1_alg».proof.Proof.Region0
import proofs.«156612_j90675349553219_1_alg».proof.Proof.Region1
import proofs.«156612_j90675349553219_1_alg».proof.Proof.Region2
import proofs.«156612_j90675349553219_1_alg».proof.Proof.Region3
import proofs.«156612_j90675349553219_1_alg».proof.Proof.Region4
import proofs.«156612_j90675349553219_1_alg».proof.Proof.Region5
-- ==== Proof.Fold0.lean ====
/-
  Layer 0 of the kernel's program, from one segment boundary to the next but one: host stretch 0 prepares region
  0's five input arrays from the buffer contents at the boundary, region 0 leaves the layer's output array, and
  neither touches what the later layers still need.
-/
import proofs.«156612_j90675349553219_1_alg».proof.Proof.KernHost0
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- From the launch memory: after region 0 everything the walk carries is in place, and region 0's output array is
    layer 0 of the launch features. -/
theorem step0 (c : Dev nD) :
    Held (W2 (F := Ideal) m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ W2 (F := Ideal) m ρ c (Proc.devRef .tc main_v28)
        = Cert.Sage.dense (D := 128) (m ((c : Thread nD τ).loc main_arg0)) (agg (m ((c : Thread nD τ).loc main_arg1)) (m ((c : Thread nD τ).loc main_arg2)) (m ((c : Thread nD τ).loc main_arg0)))
            (wmat0 (m ((c : Thread nD τ).loc main_arg3))) (wmat0 (m ((c : Thread nD τ).loc main_arg4))) (bvec0 (m ((c : Thread nD τ).loc main_arg5))) := by
  have H' : Held (W1 (F := Ideal) m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    held_host0 (W0 (F := Ideal) m ρ c) rfl rfl rfl rfl rfl rfl rfl rfl
  have e0 : V1 (F := Ideal) m ρ c (Pipeline.arrRef spec0 0) = (m ((c : Thread nD τ).loc main_arg0)) := host0_feat (W0 (F := Ideal) m ρ c)
  have e1 : V1 (F := Ideal) m ρ c (Pipeline.arrRef spec0 1) = agg (m ((c : Thread nD τ).loc main_arg1)) (m ((c : Thread nD τ).loc main_arg2)) (m ((c : Thread nD τ).loc main_arg0)) := host0_neigh (W0 (F := Ideal) m ρ c)
  have e2 : V1 (F := Ideal) m ρ c (Pipeline.arrRef spec0 2) = wmat0 (m ((c : Thread nD τ).loc main_arg3)) := host0_ws (W0 (F := Ideal) m ρ c)
  have e3 : V1 (F := Ideal) m ρ c (Pipeline.arrRef spec0 3) = wmat0 (m ((c : Thread nD τ).loc main_arg4)) := host0_wn (W0 (F := Ideal) m ρ c)
  have eb : V1 (F := Ideal) m ρ c (Pipeline.arrRef spec0 4) = shapeCast S1x128 (bvec0 (m ((c : Thread nD τ).loc main_arg5))) shapeCasts_S128_S1x128 := host0_bias (W0 (F := Ideal) m ρ c)
  have e4 : (fun i => V1 (F := Ideal) m ρ c (Pipeline.arrRef spec0 4) (ix2 (0 : Fin 1) (i 0))) = bvec0 (m ((c : Thread nD τ).loc main_arg5)) := by
    rw [eb]; exact row_apply (bvec0 (m ((c : Thread nD τ).loc main_arg5))) shapeCasts_S128_S1x128
  refine ⟨⟨(W2_of_ne (F := Ideal) m ρ c main_arg1 (by decide)).trans H'.h1,
    (W2_of_ne (F := Ideal) m ρ c main_arg2 (by decide)).trans H'.h2,
    (W2_of_ne (F := Ideal) m ρ c main_arg3 (by decide)).trans H'.h3,
    (W2_of_ne (F := Ideal) m ρ c main_arg4 (by decide)).trans H'.h4,
    (W2_of_ne (F := Ideal) m ρ c main_arg5 (by decide)).trans H'.h5,
    (W2_of_ne (F := Ideal) m ρ c main_arg6 (by decide)).trans H'.h6,
    (W2_of_ne (F := Ideal) m ρ c main_arg7 (by decide)).trans H'.h7,
    (W2_of_ne (F := Ideal) m ρ c main_arg8 (by decide)).trans H'.h8,
    (W2_of_ne (F := Ideal) m ρ c main_v7 (by decide)).trans H'.hd⟩, ?_⟩
  exact (W2_arr (F := Ideal) m ρ c 5).trans ((Cert.Sage.Region.final0 (V1 (F := Ideal) m ρ) c).trans
    (dense_congr e0 e1 e2 e3 e4))

end Cert.Sage.Kern

end
-- ==== Proof.KernHost1.lean ====
/-
  Host stretch 1 of the kernel's program (the operations between region 0 and region 1), read at any buffer
  contents W it may start from: what it leaves in the five buffers region 1 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 1 reads. -/
theorem host1_feat : StableHlo.after (hostOps1 (F := Ideal)) W (Proc.devRef .tc main_v28) = W (Proc.devRef .tc main_v28) := by
  after_results_simp

set_option maxHeartbeats 1000000 in
/-- It aggregates the features region 0 left, scaling by whatever the inverse in-degree buffer holds. -/
theorem host1_neigh : StableHlo.after (hostOps1 (F := Ideal)) W (Proc.devRef .tc main_v41)
    = aggWith (W (Proc.devRef .tc main_arg1)) (W (Proc.devRef .tc main_arg2)) (W (Proc.devRef .tc main_v7)) (W (Proc.devRef .tc main_v28)) := by
  after_results_simp
  rfl

/-- It slices layer 1's two weight matrices out of the stacks. -/
theorem host1_ws : StableHlo.after (hostOps1 (F := Ideal)) W (Proc.devRef .tc main_v43) = wmat1 (W (Proc.devRef .tc main_arg3)) := by
  after_results_simp
  rfl
theorem host1_wn : StableHlo.after (hostOps1 (F := Ideal)) W (Proc.devRef .tc main_v45) = wmat1 (W (Proc.devRef .tc main_arg4)) := by
  after_results_simp
  rfl
/-- It slices layer 1's bias vector out and lays it out as one row. -/
theorem host1_bias : StableHlo.after (hostOps1 (F := Ideal)) W (Proc.devRef .tc main_v48)
    = shapeCast S1x128 (bvec1 (W (Proc.devRef .tc main_arg5))) shapeCasts_S128_S1x128 := by
  after_results_simp
  rfl

set_option maxHeartbeats 2000000 in
/-- The stretch keeps everything the walk carries. -/
theorem held_host1 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (H : Held W src dst a3 a4 a5 a6 a7 a8) : Held (StableHlo.after (hostOps1 (F := Ideal)) W) src dst a3 a4 a5 a6 a7 a8 where
  h1 := (show StableHlo.after (hostOps1 (F := Ideal)) W (Proc.devRef .tc main_arg1) = W (Proc.devRef .tc main_arg1) from by after_results_simp).trans H.h1
  h2 := (show StableHlo.after (hostOps1 (F := Ideal)) W (Proc.devRef .tc main_arg2) = W (Proc.devRef .tc main_arg2) from by after_results_simp).trans H.h2
  h3 := (show StableHlo.after (hostOps1 (F := Ideal)) W (Proc.devRef .tc main_arg3) = W (Proc.devRef .tc main_arg3) from by after_results_simp).trans H.h3
  h4 := (show StableHlo.after (hostOps1 (F := Ideal)) W (Proc.devRef .tc main_arg4) = W (Proc.devRef .tc main_arg4) from by after_results_simp).trans H.h4
  h5 := (show StableHlo.after (hostOps1 (F := Ideal)) W (Proc.devRef .tc main_arg5) = W (Proc.devRef .tc main_arg5) from by after_results_simp).trans H.h5
  h6 := (show StableHlo.after (hostOps1 (F := Ideal)) W (Proc.devRef .tc main_arg6) = W (Proc.devRef .tc main_arg6) from by after_results_simp).trans H.h6
  h7 := (show StableHlo.after (hostOps1 (F := Ideal)) W (Proc.devRef .tc main_arg7) = W (Proc.devRef .tc main_arg7) from by after_results_simp).trans H.h7
  h8 := (show StableHlo.after (hostOps1 (F := Ideal)) W (Proc.devRef .tc main_arg8) = W (Proc.devRef .tc main_arg8) from by after_results_simp).trans H.h8
  hd := (show StableHlo.after (hostOps1 (F := Ideal)) W (Proc.devRef .tc main_v7) = W (Proc.devRef .tc main_v7) from by after_results_simp).trans H.hd

end Cert.Sage.Kern

end
-- ==== Proof.Fold1.lean ====
/-
  Layer 1 of the kernel's program, from one segment boundary to the next but one: host stretch 1 prepares region
  1's five input arrays from the buffer contents at the boundary, region 1 leaves the layer's output array, and
  neither touches what the later layers still need.
-/
import proofs.«156612_j90675349553219_1_alg».proof.Proof.KernHost1
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- If the boundary before stretch 1 holds the carried facts and features h in region 0's output buffer, the boundary
    after region 1 holds the carried facts and layer 1 of h in region 1's output buffer. -/
theorem step1 (c : Dev nD) {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)} {h : Feats}
    (H : Held (W2 (F := Ideal) m ρ c) src dst a3 a4 a5 a6 a7 a8) (eh : W2 (F := Ideal) m ρ c (Proc.devRef .tc main_v28) = h) :
    Held (W4 (F := Ideal) m ρ c) src dst a3 a4 a5 a6 a7 a8
    ∧ W4 (F := Ideal) m ρ c (Proc.devRef .tc main_v49)
        = Cert.Sage.relu (Cert.Sage.dense (D := 128) h (agg src dst h) (wmat1 a3) (wmat1 a4) (bvec1 a5)) := by
  have H' : Held (W3 (F := Ideal) m ρ c) src dst a3 a4 a5 a6 a7 a8 := held_host1 (W2 (F := Ideal) m ρ c) H
  have e0 : V3 (F := Ideal) m ρ c (Pipeline.arrRef spec1 0) = h := (host1_feat (W2 (F := Ideal) m ρ c)).trans eh
  have e1 : V3 (F := Ideal) m ρ c (Pipeline.arrRef spec1 1) = agg src dst h := by
    refine (host1_neigh (W2 (F := Ideal) m ρ c)).trans ?_
    rw [H.h1, H.h2, H.hd, eh]; rfl
  have e2 : V3 (F := Ideal) m ρ c (Pipeline.arrRef spec1 2) = wmat1 a3 := (host1_ws (W2 (F := Ideal) m ρ c)).trans (congrArg wmat1 H.h3)
  have e3 : V3 (F := Ideal) m ρ c (Pipeline.arrRef spec1 3) = wmat1 a4 := (host1_wn (W2 (F := Ideal) m ρ c)).trans (congrArg wmat1 H.h4)
  have eb : V3 (F := Ideal) m ρ c (Pipeline.arrRef spec1 4) = shapeCast S1x128 (bvec1 a5) shapeCasts_S128_S1x128 :=
    (host1_bias (W2 (F := Ideal) m ρ c)).trans (by rw [H.h5])
  have e4 : (fun i => V3 (F := Ideal) m ρ c (Pipeline.arrRef spec1 4) (ix2 (0 : Fin 1) (i 0))) = bvec1 a5 := by
    rw [eb]; exact row_apply (bvec1 a5) shapeCasts_S128_S1x128
  refine ⟨⟨(W4_of_ne (F := Ideal) m ρ c main_arg1 (by decide)).trans H'.h1,
    (W4_of_ne (F := Ideal) m ρ c main_arg2 (by decide)).trans H'.h2,
    (W4_of_ne (F := Ideal) m ρ c main_arg3 (by decide)).trans H'.h3,
    (W4_of_ne (F := Ideal) m ρ c main_arg4 (by decide)).trans H'.h4,
    (W4_of_ne (F := Ideal) m ρ c main_arg5 (by decide)).trans H'.h5,
    (W4_of_ne (F := Ideal) m ρ c main_arg6 (by decide)).trans H'.h6,
    (W4_of_ne (F := Ideal) m ρ c main_arg7 (by decide)).trans H'.h7,
    (W4_of_ne (F := Ideal) m ρ c main_arg8 (by decide)).trans H'.h8,
    (W4_of_ne (F := Ideal) m ρ c main_v7 (by decide)).trans H'.hd⟩, ?_⟩
  exact (W4_arr (F := Ideal) m ρ c 5).trans ((Cert.Sage.Region.final1 (V3 (F := Ideal) m ρ) c).trans
    (congrArg Cert.Sage.relu (dense_congr e0 e1 e2 e3 e4)))

end Cert.Sage.Kern

end
-- ==== Proof.KernHost2.lean ====
/-
  Host stretch 2 of the kernel's program (the operations between region 1 and region 2), read at any buffer
  contents W it may start from: what it leaves in the five buffers region 2 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 2 reads. -/
theorem host2_feat : StableHlo.after (hostOps2 (F := Ideal)) W (Proc.devRef .tc main_v49) = W (Proc.devRef .tc main_v49) := by
  after_results_simp

set_option maxHeartbeats 1000000 in
/-- It aggregates the features region 1 left, scaling by whatever the inverse in-degree buffer holds. -/
theorem host2_neigh : StableHlo.after (hostOps2 (F := Ideal)) W (Proc.devRef .tc main_v62)
    = aggWith (W (Proc.devRef .tc main_arg1)) (W (Proc.devRef .tc main_arg2)) (W (Proc.devRef .tc main_v7)) (W (Proc.devRef .tc main_v49)) := by
  after_results_simp
  rfl

/-- It slices layer 2's two weight matrices out of the stacks. -/
theorem host2_ws : StableHlo.after (hostOps2 (F := Ideal)) W (Proc.devRef .tc main_v64) = wmat2 (W (Proc.devRef .tc main_arg3)) := by
  after_results_simp
  rfl
theorem host2_wn : StableHlo.after (hostOps2 (F := Ideal)) W (Proc.devRef .tc main_v66) = wmat2 (W (Proc.devRef .tc main_arg4)) := by
  after_results_simp
  rfl
/-- It slices layer 2's bias vector out and lays it out as one row. -/
theorem host2_bias : StableHlo.after (hostOps2 (F := Ideal)) W (Proc.devRef .tc main_v69)
    = shapeCast S1x128 (bvec2 (W (Proc.devRef .tc main_arg5))) shapeCasts_S128_S1x128 := by
  after_results_simp
  rfl

set_option maxHeartbeats 2000000 in
/-- The stretch keeps everything the walk carries. -/
theorem held_host2 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (H : Held W src dst a3 a4 a5 a6 a7 a8) : Held (StableHlo.after (hostOps2 (F := Ideal)) W) src dst a3 a4 a5 a6 a7 a8 where
  h1 := (show StableHlo.after (hostOps2 (F := Ideal)) W (Proc.devRef .tc main_arg1) = W (Proc.devRef .tc main_arg1) from by after_results_simp).trans H.h1
  h2 := (show StableHlo.after (hostOps2 (F := Ideal)) W (Proc.devRef .tc main_arg2) = W (Proc.devRef .tc main_arg2) from by after_results_simp).trans H.h2
  h3 := (show StableHlo.after (hostOps2 (F := Ideal)) W (Proc.devRef .tc main_arg3) = W (Proc.devRef .tc main_arg3) from by after_results_simp).trans H.h3
  h4 := (show StableHlo.after (hostOps2 (F := Ideal)) W (Proc.devRef .tc main_arg4) = W (Proc.devRef .tc main_arg4) from by after_results_simp).trans H.h4
  h5 := (show StableHlo.after (hostOps2 (F := Ideal)) W (Proc.devRef .tc main_arg5) = W (Proc.devRef .tc main_arg5) from by after_results_simp).trans H.h5
  h6 := (show StableHlo.after (hostOps2 (F := Ideal)) W (Proc.devRef .tc main_arg6) = W (Proc.devRef .tc main_arg6) from by after_results_simp).trans H.h6
  h7 := (show StableHlo.after (hostOps2 (F := Ideal)) W (Proc.devRef .tc main_arg7) = W (Proc.devRef .tc main_arg7) from by after_results_simp).trans H.h7
  h8 := (show StableHlo.after (hostOps2 (F := Ideal)) W (Proc.devRef .tc main_arg8) = W (Proc.devRef .tc main_arg8) from by after_results_simp).trans H.h8
  hd := (show StableHlo.after (hostOps2 (F := Ideal)) W (Proc.devRef .tc main_v7) = W (Proc.devRef .tc main_v7) from by after_results_simp).trans H.hd

end Cert.Sage.Kern

end
-- ==== Proof.Fold2.lean ====
/-
  Layer 2 of the kernel's program, from one segment boundary to the next but one: host stretch 2 prepares region
  2's five input arrays from the buffer contents at the boundary, region 2 leaves the layer's output array, and
  neither touches what the later layers still need.
-/
import proofs.«156612_j90675349553219_1_alg».proof.Proof.KernHost2
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- If the boundary before stretch 2 holds the carried facts and features h in region 1's output buffer, the boundary
    after region 2 holds the carried facts and layer 2 of h in region 2's output buffer. -/
theorem step2 (c : Dev nD) {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)} {h : Feats}
    (H : Held (W4 (F := Ideal) m ρ c) src dst a3 a4 a5 a6 a7 a8) (eh : W4 (F := Ideal) m ρ c (Proc.devRef .tc main_v49) = h) :
    Held (W6 (F := Ideal) m ρ c) src dst a3 a4 a5 a6 a7 a8
    ∧ W6 (F := Ideal) m ρ c (Proc.devRef .tc main_v70)
        = Cert.Sage.relu (Cert.Sage.dense (D := 128) h (agg src dst h) (wmat2 a3) (wmat2 a4) (bvec2 a5)) := by
  have H' : Held (W5 (F := Ideal) m ρ c) src dst a3 a4 a5 a6 a7 a8 := held_host2 (W4 (F := Ideal) m ρ c) H
  have e0 : V5 (F := Ideal) m ρ c (Pipeline.arrRef spec2 0) = h := (host2_feat (W4 (F := Ideal) m ρ c)).trans eh
  have e1 : V5 (F := Ideal) m ρ c (Pipeline.arrRef spec2 1) = agg src dst h := by
    refine (host2_neigh (W4 (F := Ideal) m ρ c)).trans ?_
    rw [H.h1, H.h2, H.hd, eh]; rfl
  have e2 : V5 (F := Ideal) m ρ c (Pipeline.arrRef spec2 2) = wmat2 a3 := (host2_ws (W4 (F := Ideal) m ρ c)).trans (congrArg wmat2 H.h3)
  have e3 : V5 (F := Ideal) m ρ c (Pipeline.arrRef spec2 3) = wmat2 a4 := (host2_wn (W4 (F := Ideal) m ρ c)).trans (congrArg wmat2 H.h4)
  have eb : V5 (F := Ideal) m ρ c (Pipeline.arrRef spec2 4) = shapeCast S1x128 (bvec2 a5) shapeCasts_S128_S1x128 :=
    (host2_bias (W4 (F := Ideal) m ρ c)).trans (by rw [H.h5])
  have e4 : (fun i => V5 (F := Ideal) m ρ c (Pipeline.arrRef spec2 4) (ix2 (0 : Fin 1) (i 0))) = bvec2 a5 := by
    rw [eb]; exact row_apply (bvec2 a5) shapeCasts_S128_S1x128
  refine ⟨⟨(W6_of_ne (F := Ideal) m ρ c main_arg1 (by decide)).trans H'.h1,
    (W6_of_ne (F := Ideal) m ρ c main_arg2 (by decide)).trans H'.h2,
    (W6_of_ne (F := Ideal) m ρ c main_arg3 (by decide)).trans H'.h3,
    (W6_of_ne (F := Ideal) m ρ c main_arg4 (by decide)).trans H'.h4,
    (W6_of_ne (F := Ideal) m ρ c main_arg5 (by decide)).trans H'.h5,
    (W6_of_ne (F := Ideal) m ρ c main_arg6 (by decide)).trans H'.h6,
    (W6_of_ne (F := Ideal) m ρ c main_arg7 (by decide)).trans H'.h7,
    (W6_of_ne (F := Ideal) m ρ c main_arg8 (by decide)).trans H'.h8,
    (W6_of_ne (F := Ideal) m ρ c main_v7 (by decide)).trans H'.hd⟩, ?_⟩
  exact (W6_arr (F := Ideal) m ρ c 5).trans ((Cert.Sage.Region.final2 (V5 (F := Ideal) m ρ) c).trans
    (congrArg Cert.Sage.relu (dense_congr e0 e1 e2 e3 e4)))

end Cert.Sage.Kern

end
-- ==== Proof.KernHost3.lean ====
/-
  Host stretch 3 of the kernel's program (the operations between region 2 and region 3), read at any buffer
  contents W it may start from: what it leaves in the five buffers region 3 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 3 reads. -/
theorem host3_feat : StableHlo.after (hostOps3 (F := Ideal)) W (Proc.devRef .tc main_v70) = W (Proc.devRef .tc main_v70) := by
  after_results_simp

set_option maxHeartbeats 1000000 in
/-- It aggregates the features region 2 left, scaling by whatever the inverse in-degree buffer holds. -/
theorem host3_neigh : StableHlo.after (hostOps3 (F := Ideal)) W (Proc.devRef .tc main_v83)
    = aggWith (W (Proc.devRef .tc main_arg1)) (W (Proc.devRef .tc main_arg2)) (W (Proc.devRef .tc main_v7)) (W (Proc.devRef .tc main_v70)) := by
  after_results_simp
  rfl

/-- It slices layer 3's two weight matrices out of the stacks. -/
theorem host3_ws : StableHlo.after (hostOps3 (F := Ideal)) W (Proc.devRef .tc main_v85) = wmat3 (W (Proc.devRef .tc main_arg3)) := by
  after_results_simp
  rfl
theorem host3_wn : StableHlo.after (hostOps3 (F := Ideal)) W (Proc.devRef .tc main_v87) = wmat3 (W (Proc.devRef .tc main_arg4)) := by
  after_results_simp
  rfl
/-- It slices layer 3's bias vector out and lays it out as one row. -/
theorem host3_bias : StableHlo.after (hostOps3 (F := Ideal)) W (Proc.devRef .tc main_v90)
    = shapeCast S1x128 (bvec3 (W (Proc.devRef .tc main_arg5))) shapeCasts_S128_S1x128 := by
  after_results_simp
  rfl

set_option maxHeartbeats 2000000 in
/-- The stretch keeps everything the walk carries. -/
theorem held_host3 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (H : Held W src dst a3 a4 a5 a6 a7 a8) : Held (StableHlo.after (hostOps3 (F := Ideal)) W) src dst a3 a4 a5 a6 a7 a8 where
  h1 := (show StableHlo.after (hostOps3 (F := Ideal)) W (Proc.devRef .tc main_arg1) = W (Proc.devRef .tc main_arg1) from by after_results_simp).trans H.h1
  h2 := (show StableHlo.after (hostOps3 (F := Ideal)) W (Proc.devRef .tc main_arg2) = W (Proc.devRef .tc main_arg2) from by after_results_simp).trans H.h2
  h3 := (show StableHlo.after (hostOps3 (F := Ideal)) W (Proc.devRef .tc main_arg3) = W (Proc.devRef .tc main_arg3) from by after_results_simp).trans H.h3
  h4 := (show StableHlo.after (hostOps3 (F := Ideal)) W (Proc.devRef .tc main_arg4) = W (Proc.devRef .tc main_arg4) from by after_results_simp).trans H.h4
  h5 := (show StableHlo.after (hostOps3 (F := Ideal)) W (Proc.devRef .tc main_arg5) = W (Proc.devRef .tc main_arg5) from by after_results_simp).trans H.h5
  h6 := (show StableHlo.after (hostOps3 (F := Ideal)) W (Proc.devRef .tc main_arg6) = W (Proc.devRef .tc main_arg6) from by after_results_simp).trans H.h6
  h7 := (show StableHlo.after (hostOps3 (F := Ideal)) W (Proc.devRef .tc main_arg7) = W (Proc.devRef .tc main_arg7) from by after_results_simp).trans H.h7
  h8 := (show StableHlo.after (hostOps3 (F := Ideal)) W (Proc.devRef .tc main_arg8) = W (Proc.devRef .tc main_arg8) from by after_results_simp).trans H.h8
  hd := (show StableHlo.after (hostOps3 (F := Ideal)) W (Proc.devRef .tc main_v7) = W (Proc.devRef .tc main_v7) from by after_results_simp).trans H.hd

end Cert.Sage.Kern

end
-- ==== Proof.Fold3.lean ====
/-
  Layer 3 of the kernel's program, from one segment boundary to the next but one: host stretch 3 prepares region
  3's five input arrays from the buffer contents at the boundary, region 3 leaves the layer's output array, and
  neither touches what the later layers still need.
-/
import proofs.«156612_j90675349553219_1_alg».proof.Proof.KernHost3
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- If the boundary before stretch 3 holds the carried facts and features h in region 2's output buffer, the boundary
    after region 3 holds the carried facts and layer 3 of h in region 3's output buffer. -/
theorem step3 (c : Dev nD) {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)} {h : Feats}
    (H : Held (W6 (F := Ideal) m ρ c) src dst a3 a4 a5 a6 a7 a8) (eh : W6 (F := Ideal) m ρ c (Proc.devRef .tc main_v70) = h) :
    Held (W8 (F := Ideal) m ρ c) src dst a3 a4 a5 a6 a7 a8
    ∧ W8 (F := Ideal) m ρ c (Proc.devRef .tc main_v91)
        = Cert.Sage.relu (Cert.Sage.dense (D := 128) h (agg src dst h) (wmat3 a3) (wmat3 a4) (bvec3 a5)) := by
  have H' : Held (W7 (F := Ideal) m ρ c) src dst a3 a4 a5 a6 a7 a8 := held_host3 (W6 (F := Ideal) m ρ c) H
  have e0 : V7 (F := Ideal) m ρ c (Pipeline.arrRef spec3 0) = h := (host3_feat (W6 (F := Ideal) m ρ c)).trans eh
  have e1 : V7 (F := Ideal) m ρ c (Pipeline.arrRef spec3 1) = agg src dst h := by
    refine (host3_neigh (W6 (F := Ideal) m ρ c)).trans ?_
    rw [H.h1, H.h2, H.hd, eh]; rfl
  have e2 : V7 (F := Ideal) m ρ c (Pipeline.arrRef spec3 2) = wmat3 a3 := (host3_ws (W6 (F := Ideal) m ρ c)).trans (congrArg wmat3 H.h3)
  have e3 : V7 (F := Ideal) m ρ c (Pipeline.arrRef spec3 3) = wmat3 a4 := (host3_wn (W6 (F := Ideal) m ρ c)).trans (congrArg wmat3 H.h4)
  have eb : V7 (F := Ideal) m ρ c (Pipeline.arrRef spec3 4) = shapeCast S1x128 (bvec3 a5) shapeCasts_S128_S1x128 :=
    (host3_bias (W6 (F := Ideal) m ρ c)).trans (by rw [H.h5])
  have e4 : (fun i => V7 (F := Ideal) m ρ c (Pipeline.arrRef spec3 4) (ix2 (0 : Fin 1) (i 0))) = bvec3 a5 := by
    rw [eb]; exact row_apply (bvec3 a5) shapeCasts_S128_S1x128
  refine ⟨⟨(W8_of_ne (F := Ideal) m ρ c main_arg1 (by decide)).trans H'.h1,
    (W8_of_ne (F := Ideal) m ρ c main_arg2 (by decide)).trans H'.h2,
    (W8_of_ne (F := Ideal) m ρ c main_arg3 (by decide)).trans H'.h3,
    (W8_of_ne (F := Ideal) m ρ c main_arg4 (by decide)).trans H'.h4,
    (W8_of_ne (F := Ideal) m ρ c main_arg5 (by decide)).trans H'.h5,
    (W8_of_ne (F := Ideal) m ρ c main_arg6 (by decide)).trans H'.h6,
    (W8_of_ne (F := Ideal) m ρ c main_arg7 (by decide)).trans H'.h7,
    (W8_of_ne (F := Ideal) m ρ c main_arg8 (by decide)).trans H'.h8,
    (W8_of_ne (F := Ideal) m ρ c main_v7 (by decide)).trans H'.hd⟩, ?_⟩
  exact (W8_arr (F := Ideal) m ρ c 5).trans ((Cert.Sage.Region.final3 (V7 (F := Ideal) m ρ) c).trans
    (congrArg Cert.Sage.relu (dense_congr e0 e1 e2 e3 e4)))

end Cert.Sage.Kern

end
-- ==== Proof.KernHost4.lean ====
/-
  Host stretch 4 of the kernel's program (the operations between region 3 and region 4), read at any buffer
  contents W it may start from: what it leaves in the five buffers region 4 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 4 reads. -/
theorem host4_feat : StableHlo.after (hostOps4 (F := Ideal)) W (Proc.devRef .tc main_v91) = W (Proc.devRef .tc main_v91) := by
  after_results_simp

set_option maxHeartbeats 1000000 in
/-- It aggregates the features region 3 left, scaling by whatever the inverse in-degree buffer holds. -/
theorem host4_neigh : StableHlo.after (hostOps4 (F := Ideal)) W (Proc.devRef .tc main_v104)
    = aggWith (W (Proc.devRef .tc main_arg1)) (W (Proc.devRef .tc main_arg2)) (W (Proc.devRef .tc main_v7)) (W (Proc.devRef .tc main_v91)) := by
  after_results_simp
  rfl

/-- It slices layer 4's two weight matrices out of the stacks. -/
theorem host4_ws : StableHlo.after (hostOps4 (F := Ideal)) W (Proc.devRef .tc main_v106) = wmat4 (W (Proc.devRef .tc main_arg3)) := by
  after_results_simp
  rfl
theorem host4_wn : StableHlo.after (hostOps4 (F := Ideal)) W (Proc.devRef .tc main_v108) = wmat4 (W (Proc.devRef .tc main_arg4)) := by
  after_results_simp
  rfl
/-- It slices layer 4's bias vector out and lays it out as one row. -/
theorem host4_bias : StableHlo.after (hostOps4 (F := Ideal)) W (Proc.devRef .tc main_v111)
    = shapeCast S1x128 (bvec4 (W (Proc.devRef .tc main_arg5))) shapeCasts_S128_S1x128 := by
  after_results_simp
  rfl

set_option maxHeartbeats 2000000 in
/-- The stretch keeps everything the walk carries. -/
theorem held_host4 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (H : Held W src dst a3 a4 a5 a6 a7 a8) : Held (StableHlo.after (hostOps4 (F := Ideal)) W) src dst a3 a4 a5 a6 a7 a8 where
  h1 := (show StableHlo.after (hostOps4 (F := Ideal)) W (Proc.devRef .tc main_arg1) = W (Proc.devRef .tc main_arg1) from by after_results_simp).trans H.h1
  h2 := (show StableHlo.after (hostOps4 (F := Ideal)) W (Proc.devRef .tc main_arg2) = W (Proc.devRef .tc main_arg2) from by after_results_simp).trans H.h2
  h3 := (show StableHlo.after (hostOps4 (F := Ideal)) W (Proc.devRef .tc main_arg3) = W (Proc.devRef .tc main_arg3) from by after_results_simp).trans H.h3
  h4 := (show StableHlo.after (hostOps4 (F := Ideal)) W (Proc.devRef .tc main_arg4) = W (Proc.devRef .tc main_arg4) from by after_results_simp).trans H.h4
  h5 := (show StableHlo.after (hostOps4 (F := Ideal)) W (Proc.devRef .tc main_arg5) = W (Proc.devRef .tc main_arg5) from by after_results_simp).trans H.h5
  h6 := (show StableHlo.after (hostOps4 (F := Ideal)) W (Proc.devRef .tc main_arg6) = W (Proc.devRef .tc main_arg6) from by after_results_simp).trans H.h6
  h7 := (show StableHlo.after (hostOps4 (F := Ideal)) W (Proc.devRef .tc main_arg7) = W (Proc.devRef .tc main_arg7) from by after_results_simp).trans H.h7
  h8 := (show StableHlo.after (hostOps4 (F := Ideal)) W (Proc.devRef .tc main_arg8) = W (Proc.devRef .tc main_arg8) from by after_results_simp).trans H.h8
  hd := (show StableHlo.after (hostOps4 (F := Ideal)) W (Proc.devRef .tc main_v7) = W (Proc.devRef .tc main_v7) from by after_results_simp).trans H.hd

end Cert.Sage.Kern

end
-- ==== Proof.Fold4.lean ====
/-
  Layer 4 of the kernel's program, from one segment boundary to the next but one: host stretch 4 prepares region
  4's five input arrays from the buffer contents at the boundary, region 4 leaves the layer's output array, and
  neither touches what the later layers still need.
-/
import proofs.«156612_j90675349553219_1_alg».proof.Proof.KernHost4
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- If the boundary before stretch 4 holds the carried facts and features h in region 3's output buffer, the boundary
    after region 4 holds the carried facts and layer 4 of h in region 4's output buffer. -/
theorem step4 (c : Dev nD) {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)} {h : Feats}
    (H : Held (W8 (F := Ideal) m ρ c) src dst a3 a4 a5 a6 a7 a8) (eh : W8 (F := Ideal) m ρ c (Proc.devRef .tc main_v91) = h) :
    Held (W10 (F := Ideal) m ρ c) src dst a3 a4 a5 a6 a7 a8
    ∧ W10 (F := Ideal) m ρ c (Proc.devRef .tc main_v112)
        = Cert.Sage.relu (Cert.Sage.dense (D := 128) h (agg src dst h) (wmat4 a3) (wmat4 a4) (bvec4 a5)) := by
  have H' : Held (W9 (F := Ideal) m ρ c) src dst a3 a4 a5 a6 a7 a8 := held_host4 (W8 (F := Ideal) m ρ c) H
  have e0 : V9 (F := Ideal) m ρ c (Pipeline.arrRef spec4 0) = h := (host4_feat (W8 (F := Ideal) m ρ c)).trans eh
  have e1 : V9 (F := Ideal) m ρ c (Pipeline.arrRef spec4 1) = agg src dst h := by
    refine (host4_neigh (W8 (F := Ideal) m ρ c)).trans ?_
    rw [H.h1, H.h2, H.hd, eh]; rfl
  have e2 : V9 (F := Ideal) m ρ c (Pipeline.arrRef spec4 2) = wmat4 a3 := (host4_ws (W8 (F := Ideal) m ρ c)).trans (congrArg wmat4 H.h3)
  have e3 : V9 (F := Ideal) m ρ c (Pipeline.arrRef spec4 3) = wmat4 a4 := (host4_wn (W8 (F := Ideal) m ρ c)).trans (congrArg wmat4 H.h4)
  have eb : V9 (F := Ideal) m ρ c (Pipeline.arrRef spec4 4) = shapeCast S1x128 (bvec4 a5) shapeCasts_S128_S1x128 :=
    (host4_bias (W8 (F := Ideal) m ρ c)).trans (by rw [H.h5])
  have e4 : (fun i => V9 (F := Ideal) m ρ c (Pipeline.arrRef spec4 4) (ix2 (0 : Fin 1) (i 0))) = bvec4 a5 := by
    rw [eb]; exact row_apply (bvec4 a5) shapeCasts_S128_S1x128
  refine ⟨⟨(W10_of_ne (F := Ideal) m ρ c main_arg1 (by decide)).trans H'.h1,
    (W10_of_ne (F := Ideal) m ρ c main_arg2 (by decide)).trans H'.h2,
    (W10_of_ne (F := Ideal) m ρ c main_arg3 (by decide)).trans H'.h3,
    (W10_of_ne (F := Ideal) m ρ c main_arg4 (by decide)).trans H'.h4,
    (W10_of_ne (F := Ideal) m ρ c main_arg5 (by decide)).trans H'.h5,
    (W10_of_ne (F := Ideal) m ρ c main_arg6 (by decide)).trans H'.h6,
    (W10_of_ne (F := Ideal) m ρ c main_arg7 (by decide)).trans H'.h7,
    (W10_of_ne (F := Ideal) m ρ c main_arg8 (by decide)).trans H'.h8,
    (W10_of_ne (F := Ideal) m ρ c main_v7 (by decide)).trans H'.hd⟩, ?_⟩
  exact (W10_arr (F := Ideal) m ρ c 5).trans ((Cert.Sage.Region.final4 (V9 (F := Ideal) m ρ) c).trans
    (congrArg Cert.Sage.relu (dense_congr e0 e1 e2 e3 e4)))

end Cert.Sage.Kern

end
-- ==== Proof.KernHost5.lean ====
/-
  Host stretch 5 of the kernel's program (the operations between region 4 and region 5), read at any buffer
  contents W it may start from: what it leaves in the five buffers region 5 takes as its input arrays, and that it
  leaves alone the buffers the rest of the program still needs.
-/
import proofs.«156612_j90675349553219_1_alg».proof.Proof.KernDefs

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-- The stretch does not write the features region 5 reads. -/
theorem host5_feat : StableHlo.after (hostOps5 (F := Ideal)) W (Proc.devRef .tc main_v112) = W (Proc.devRef .tc main_v112) := by
  after_results_simp

set_option maxHeartbeats 1000000 in
/-- It aggregates the features region 4 left, scaling by whatever the inverse in-degree buffer holds. -/
theorem host5_neigh : StableHlo.after (hostOps5 (F := Ideal)) W (Proc.devRef .tc main_v125)
    = aggWith (W (Proc.devRef .tc main_arg1)) (W (Proc.devRef .tc main_arg2)) (W (Proc.devRef .tc main_v7)) (W (Proc.devRef .tc main_v112)) := by
  after_results_simp
  rfl

/-- It lays the output layer's bias vector out as one row. -/
theorem host5_bias : StableHlo.after (hostOps5 (F := Ideal)) W (Proc.devRef .tc main_v126)
    = shapeCast S1x47 (W (Proc.devRef .tc main_arg8)) shapeCasts_S47_S1x47 := by
  after_results_simp
  rfl

set_option maxHeartbeats 2000000 in
/-- The stretch keeps everything the walk carries. -/
theorem held_host5 {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)}
    (H : Held W src dst a3 a4 a5 a6 a7 a8) : Held (StableHlo.after (hostOps5 (F := Ideal)) W) src dst a3 a4 a5 a6 a7 a8 where
  h1 := (show StableHlo.after (hostOps5 (F := Ideal)) W (Proc.devRef .tc main_arg1) = W (Proc.devRef .tc main_arg1) from by after_results_simp).trans H.h1
  h2 := (show StableHlo.after (hostOps5 (F := Ideal)) W (Proc.devRef .tc main_arg2) = W (Proc.devRef .tc main_arg2) from by after_results_simp).trans H.h2
  h3 := (show StableHlo.after (hostOps5 (F := Ideal)) W (Proc.devRef .tc main_arg3) = W (Proc.devRef .tc main_arg3) from by after_results_simp).trans H.h3
  h4 := (show StableHlo.after (hostOps5 (F := Ideal)) W (Proc.devRef .tc main_arg4) = W (Proc.devRef .tc main_arg4) from by after_results_simp).trans H.h4
  h5 := (show StableHlo.after (hostOps5 (F := Ideal)) W (Proc.devRef .tc main_arg5) = W (Proc.devRef .tc main_arg5) from by after_results_simp).trans H.h5
  h6 := (show StableHlo.after (hostOps5 (F := Ideal)) W (Proc.devRef .tc main_arg6) = W (Proc.devRef .tc main_arg6) from by after_results_simp).trans H.h6
  h7 := (show StableHlo.after (hostOps5 (F := Ideal)) W (Proc.devRef .tc main_arg7) = W (Proc.devRef .tc main_arg7) from by after_results_simp).trans H.h7
  h8 := (show StableHlo.after (hostOps5 (F := Ideal)) W (Proc.devRef .tc main_arg8) = W (Proc.devRef .tc main_arg8) from by after_results_simp).trans H.h8
  hd := (show StableHlo.after (hostOps5 (F := Ideal)) W (Proc.devRef .tc main_v7) = W (Proc.devRef .tc main_v7) from by after_results_simp).trans H.hd

end Cert.Sage.Kern

end
-- ==== Proof.Fold5.lean ====
/-
  Layer 5 of the kernel's program, from one segment boundary to the next but one: host stretch 5 prepares region
  5's five input arrays from the buffer contents at the boundary, region 5 leaves the layer's output array, and
  neither touches what the later layers still need.
-/
import proofs.«156612_j90675349553219_1_alg».proof.Proof.KernHost5
import proofs.«156612_j90675349553219_1_alg».proof.Proof.RegionsStated

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- If the boundary before stretch 5 holds the carried facts and features h in region 4's output buffer, region 5's
    output buffer ends at the output layer of h. -/
theorem step5 (c : Dev nD) {src dst : Edges} {a3 a4 : (⟨S5x128x128, .f32⟩ : BufTy).Contents (Elt Ideal)} {a5 : (⟨S5x128, .f32⟩ : BufTy).Contents (Elt Ideal)}
    {a6 a7 : (⟨S128x47, .f32⟩ : BufTy).Contents (Elt Ideal)} {a8 : (⟨S47, .f32⟩ : BufTy).Contents (Elt Ideal)} {h : Feats}
    (H : Held (W10 (F := Ideal) m ρ c) src dst a3 a4 a5 a6 a7 a8) (eh : W10 (F := Ideal) m ρ c (Proc.devRef .tc main_v112) = h) :
    W12 (F := Ideal) m ρ c (Proc.devRef .tc main_v127)
        = Cert.Sage.dense (D := 47) h (agg src dst h) a6 a7 a8 := by
  have H' : Held (W11 (F := Ideal) m ρ c) src dst a3 a4 a5 a6 a7 a8 := held_host5 (W10 (F := Ideal) m ρ c) H
  have e0 : V11 (F := Ideal) m ρ c (Pipeline.arrRef spec5 0) = h := (host5_feat (W10 (F := Ideal) m ρ c)).trans eh
  have e1 : V11 (F := Ideal) m ρ c (Pipeline.arrRef spec5 1) = agg src dst h := by
    refine (host5_neigh (W10 (F := Ideal) m ρ c)).trans ?_
    rw [H.h1, H.h2, H.hd, eh]; rfl
  have e2 : V11 (F := Ideal) m ρ c (Pipeline.arrRef spec5 2) = a6 := H'.h6
  have e3 : V11 (F := Ideal) m ρ c (Pipeline.arrRef spec5 3) = a7 := H'.h7
  have eb : V11 (F := Ideal) m ρ c (Pipeline.arrRef spec5 4) = shapeCast S1x47 a8 shapeCasts_S47_S1x47 :=
    (host5_bias (W10 (F := Ideal) m ρ c)).trans (by rw [H.h8])
  have e4 : (fun i => V11 (F := Ideal) m ρ c (Pipeline.arrRef spec5 4) (ix2 (0 : Fin 1) (i 0))) = a8 := by
    rw [eb]; exact row_apply a8 shapeCasts_S47_S1x47
  exact (W12_arr (F := Ideal) m ρ c 5).trans ((Cert.Sage.Region.final5 (V11 (F := Ideal) m ρ) c).trans
    (dense_congr e0 e1 e2 e3 e4))

end Cert.Sage.Kern

end
-- ==== Proof.KernRun.lean ====
/-
  The kernel's program, run as a whole: from any launch memory with zero counters every weakly fair execution ends,
  without a fault, with every buffer that outlives the regions holding what the walk through the program's twelve
  segments (six host stretches, six regions) computes for it. The segments, their proof data and the chain between
  them are the frame's; only the conclusion drawn at the end differs: the frame keeps the argument arrays, this keeps
  every such buffer, so that the result can be read.
-/
import proofs.«156612_j90675349553219_1_alg».proof.Proof.Gen.KernelIdeal.Frame
import Idealize.ShloMosaic.PureOps.Ideal

set_option maxRecDepth 16384

noncomputable section

namespace Cert.Sage.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the kernel's program terminates, nothing faulting, with every unscoped buffer of
    every core at the last segment boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W12 (F := Ideal) m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.Sage.Kern

end
-- ==== Proof.KernValue.lean ====
/-
  The kernel's result: walking the six layers in order from the launch memory, region 5's output array at the last
  segment boundary is the network of the launch arrays; the whole program's run therefore ends with its result buffer
  at the network and its argument arrays as launched.
-/
import proofs.«156612_j90675349553219_1_alg».proof.Proof.Fold0
import proofs.«156612_j90675349553219_1_alg».proof.Proof.Fold1
import proofs.«156612_j90675349553219_1_alg».proof.Proof.Fold2
import proofs.«156612_j90675349553219_1_alg».proof.Proof.Fold3
import proofs.«156612_j90675349553219_1_alg».proof.Proof.Fold4
import proofs.«156612_j90675349553219_1_alg».proof.Proof.Fold5
import proofs.«156612_j90675349553219_1_alg».proof.Proof.KernRun

noncomputable section

namespace Cert.Sage.Kern

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The network of core c's launch arrays, with the kernel program's own host chain as the aggregation. -/
def result (c : Dev nD) : Buf (Elt Ideal) ((c.tc : Thread nD τ).loc main_v127) :=
  Cert.Sage.net (agg (m ((c : Thread nD τ).loc main_arg1)) (m ((c : Thread nD τ).loc main_arg2))) (m ((c : Thread nD τ).loc main_arg0))
      (wmat0 (m ((c : Thread nD τ).loc main_arg3))) (wmat0 (m ((c : Thread nD τ).loc main_arg4))) (bvec0 (m ((c : Thread nD τ).loc main_arg5)))
      (wmat1 (m ((c : Thread nD τ).loc main_arg3))) (wmat1 (m ((c : Thread nD τ).loc main_arg4))) (bvec1 (m ((c : Thread nD τ).loc main_arg5)))
      (wmat2 (m ((c : Thread nD τ).loc main_arg3))) (wmat2 (m ((c : Thread nD τ).loc main_arg4))) (bvec2 (m ((c : Thread nD τ).loc main_arg5)))
      (wmat3 (m ((c : Thread nD τ).loc main_arg3))) (wmat3 (m ((c : Thread nD τ).loc main_arg4))) (bvec3 (m ((c : Thread nD τ).loc main_arg5)))
      (wmat4 (m ((c : Thread nD τ).loc main_arg3))) (wmat4 (m ((c : Thread nD τ).loc main_arg4))) (bvec4 (m ((c : Thread nD τ).loc main_arg5)))
      (m ((c : Thread nD τ).loc main_arg6)) (m ((c : Thread nD τ).loc main_arg7)) (m ((c : Thread nD τ).loc main_arg8))

/-- At the last segment boundary the result buffer holds the network of the launch arrays: layer by layer, each
    step handing the next the carried facts and its output array. -/
theorem W12_result (c : Dev nD) : W12 (F := Ideal) m ρ c (Proc.devRef .tc main_v127) = result m c := by
  obtain ⟨H2, e2⟩ := step0 m ρ c
  obtain ⟨H4, e4⟩ := step1 m ρ c H2 e2
  obtain ⟨H6, e6⟩ := step2 m ρ c H4 e4
  obtain ⟨H8, e8⟩ := step3 m ρ c H6 e6
  obtain ⟨H10, e10⟩ := step4 m ρ c H8 e8
  exact step5 m ρ c H10 e10

/-- Every weakly fair execution of the kernel's program terminates, nothing faulting, with the result buffer at the
    network of the launch arrays and the nine argument arrays as launched. -/
theorem run_value : θ_run defs (onTc (τ := τ) (main (F := Ideal))) ⟨m, fun _ => 0, ρ⟩ (fun r => ∀ c : Dev nD,
      r.2.mem ((c.tc : Thread nD τ).loc main_v127) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v127 (by decide))).trans (W12_result m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩) (run_all m ρ)

end Cert.Sage.Kern

end
-- ==== Proof.RefLayer.lean ====
/-
  One layer of the reference, read as a whole array over the extended reals.

  The reference computes a layer as two matrix products, their sum, and the sum with the bias row, which it first
  lays out as one row and then repeats down all 100000 rows. Entry (p, q) of that array is
      (∑ₖ h (p, k) · ws (k, q) + ∑ₖ neigh (p, k) · wn (k, q)) + b q,
  the entry of the layer as the specification writes it: each product at (p, q) is the plain sum over k, and the
  twice-repeated bias row read at (p, q) is b q, whatever the row p. The activation the hidden layers add, the
  entrywise maximum with an array filled with the zero word, is the maximum with the real number 0.
-/
import proofs.«156612_j90675349553219_1_alg».proof.Proof.Spec
import proofs.«156612_j90675349553219_1_alg».proof.Proof.LibPlainDot
import Idealize.ShloMosaic.Lib.Pipeline.Value

noncomputable section

open scoped BigOperators

namespace Cert.Sage.Ref

open Idealize.ShloMosaic Idealize.ShloMosaic.ValueIdx

/-- The bias, laid out as one row and then repeated down the rows, read at (p, q): it is b q, for every row p.
    (D is not 1: a column axis of size one would be read at 0 instead, which is the same entry, but the layers here
    have 128 and 47 columns.) -/
theorem bias_rows_apply {D : Nat} (hD : ¬ D = 1)
    (hrow : (⟨1, ![D]⟩ : Shape).BroadcastsInDim ⟨2, ![1, D]⟩ (![1] : Fin 1 → Fin 2))
    (hall : (⟨2, ![1, D]⟩ : Shape).BroadcastsInDim ⟨2, ![100000, D]⟩ (![0, 1] : Fin 2 → Fin 2))
    (b : FVec Ideal ⟨1, ![D]⟩ .f32) (p : Fin 100000) (q : Fin D) :
    broadcastInDim ⟨2, ![100000, D]⟩ (![0, 1] : Fin 2 → Fin 2) hall
        (broadcastInDim ⟨2, ![1, D]⟩ (![1] : Fin 1 → Fin 2) hrow b) (ix2 p q) = b (ix1 q) := by
  refine (broadcastInDim_apply _ hall _ (ix2 p q) (ix2 (0 : Fin 1) q) (fun a => ?_)).trans ?_
  · match a with
    | ⟨0, _⟩ => show 0 = if (1 : Nat) = 1 then 0 else p.val; rw [if_pos rfl]
    | ⟨1, _⟩ => show q.val = if D = 1 then 0 else q.val; rw [if_neg hD]
  · refine broadcastInDim_apply _ hrow b (ix2 (0 : Fin 1) q) (ix1 q) (fun a => ?_)
    match a with
    | ⟨0, _⟩ => show q.val = if D = 1 then 0 else q.val; rw [if_neg hD]

/-- THE LAYER: the two products, their sum, and the sum with the repeated bias row, as one array, is the
    specification's layer of the same five arrays. The dimension numbers are any of the plain form
    (contract the left operand's columns with the right operand's rows, no batch axis). -/
theorem layer_eq {D : Nat} (hD : ¬ D = 1)
    (d : DotDims ⟨2, ![100000, 128]⟩ ⟨2, ![128, D]⟩ ⟨2, ![100000, D]⟩)
    (h1 : d.lhsContracting = [1]) (h2 : d.rhsContracting = [0]) (h3 : d.lhsNonContracting = [0])
    (h4 : d.rhsNonContracting = [1]) (h5 : d.lhsBatch = []) (h6 : d.rhsBatch = [])
    (hrow : (⟨1, ![D]⟩ : Shape).BroadcastsInDim ⟨2, ![1, D]⟩ (![1] : Fin 1 → Fin 2))
    (hall : (⟨2, ![1, D]⟩ : Shape).BroadcastsInDim ⟨2, ![100000, D]⟩ (![0, 1] : Fin 2 → Fin 2))
    (h neigh : FVec Ideal ⟨2, ![100000, 128]⟩ .f32) (ws wn : FVec Ideal ⟨2, ![128, D]⟩ .f32)
    (b : FVec Ideal ⟨1, ![D]⟩ .f32) :
    addf (addf (Host.dotGeneral (F := Ideal) d none h ws) (Host.dotGeneral (F := Ideal) d none neigh wn))
        (broadcastInDim ⟨2, ![100000, D]⟩ (![0, 1] : Fin 2 → Fin 2) hall
          (broadcastInDim ⟨2, ![1, D]⟩ (![1] : Fin 1 → Fin 2) hrow b))
      = Cert.Sage.dense h neigh ws wn b := by
  funext j
  obtain ⟨p, q, rfl⟩ : ∃ (p : Fin 100000) (q : Fin D), j = ix2 p q := ⟨j 0, j 1, eq_ix2 j⟩
  rw [Cert.Sage.dense_apply]
  unfold Cert.Sage.denseAt
  rw [addf_apply, addf_apply, bias_rows_apply hD hrow hall b p q]
  simp only [Host.dotGeneral]
  rw [Cert.PlainDot.dotGeneral_apply d h1 h2 h3 h4 h5 h6 none _ h ws p q,
    Cert.PlainDot.dotGeneral_apply d h1 h2 h3 h4 h5 h6 none _ neigh wn p q]

/-- THE ACTIVATION: the entrywise maximum with the array filled with the zero word is the maximum with 0. -/
theorem relu_eq {S : Shape} (hfill : (⟨0, ![]⟩ : Shape).BroadcastsInDim S (![] : Fin 0 → Fin S.rank))
    (y : FVec Ideal S .f32) :
    maximumf y (broadcastInDim S (![] : Fin 0 → Fin S.rank) hfill (constant (F := Ideal) ⟨0, ![]⟩ .f32 0x00000000#32))
      = Cert.Sage.relu y := by
  funext j
  rw [maximumf_apply, Cert.Sage.relu_apply,
    broadcastInDim_apply _ hfill _ j ix0 (fun a => a.elim0), constant_apply, Ideal.ofBits_zero_f32]

end Cert.Sage.Ref

end
-- ==== Proof.RefAgg.lean ====
/-
  The reference aggregates the same way in every layer.

  Each layer gathers the rows of its input features at the (wrapped) source indices, adds them into the rows named by
  the destination indices starting from zeros, and scales row by row by the inverse in-degree. The program spells that
  chain out six times, once per layer, over the same edge arrays and the same inverse in-degree; only the features
  that go in differ. So the aggregation stage of each later layer is the first layer's aggregation stage, taken as a
  function of its feature argument, applied to the previous layer's result. Nothing here looks inside the gather or
  the scatter: both sides are the same chain of operations, and unfolding the stages' names shows it.
-/
import proofs.«156612_j90675349553219_1_alg».proof.Proof.Gen.ReferenceIdeal.Read

noncomputable section

namespace Cert.Sage.Ref

open Cert.ReferenceIdeal Cert.ReferenceIdeal.Gen Cert.ReferenceIdeal.Read Idealize.ShloMosaic

variable (x0 : (⟨S100000x128, .f32⟩ : BufTy).Contents (Elt Ideal)) (x1 x2 : (⟨S1600000, .i32⟩ : BufTy).Contents (Elt Ideal))
  (x3 x4 : (⟨S5x128x128, .f32⟩ : BufTy).Contents (Elt Ideal)) (x5 : (⟨S5x128, .f32⟩ : BufTy).Contents (Elt Ideal))

/-- The first layer's aggregation stage with its chain of operations spelt out, for any features h. -/
theorem agg_unfold (h : (⟨S100000x128, .f32⟩ : BufTy).Contents (Elt Ideal)) :
    val_main_v26 (F := Ideal) h x1 x2
      = mulf
          (Host.scatterAdd scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 x2)
            (Host.gather gather_S100000x128_S1600000x1_S1600000x128_1_0_n_n_0_1_1128 h
              (broadcastInDim S1600000x1 ![0] bcast_S1600000_S1600000x1_0
                (select (cmpi .slt x1 (broadcastInDim S1600000 ![] bcast_S_S1600000 (constantI S_ 32 0#32)))
                  (addi x1 (broadcastInDim S1600000 ![] bcast_S_S1600000 (constantI S_ 32 100000#32))) x1))))
          (broadcastInDim S100000x128 ![0, 1] bcast_S100000x1_S100000x128_0_1
            (broadcastInDim S100000x1 ![0] bcast_S100000_S100000x1_0 (val_main_v7 (F := Ideal) x2))) := by
  unfold val_main_v26 val_main_v23 val_main_v25 val_main_v24 val_main_v21 val_main_cst_4 val_main_v22 val_main_v20
    val_main_v19 val_main_v18 val_main_v15 val_main_v14 val_main_c val_main_v17 val_main_v16 val_main_c_3
  rfl

/-- Layer 1 aggregates layer 0's result. -/
theorem agg1 : val_main_v51 (F := Ideal) x0 x1 x2 x3 x4 x5
    = val_main_v26 (F := Ideal) (val_main_v32 (F := Ideal) x0 x1 x2 x3 x4 x5) x1 x2 := by
  rw [agg_unfold]
  unfold val_main_v51 val_main_v48 val_main_v50 val_main_v49 val_main_v46 val_main_cst_7 val_main_v47 val_main_v45
    val_main_v44 val_main_v43 val_main_v40 val_main_v39 val_main_c_5 val_main_v42 val_main_v41 val_main_c_6
  rfl

/-- Layer 2 aggregates layer 1's result. -/
theorem agg2 : val_main_v77 (F := Ideal) x0 x1 x2 x3 x4 x5
    = val_main_v26 (F := Ideal) (val_main_v58 (F := Ideal) x0 x1 x2 x3 x4 x5) x1 x2 := by
  rw [agg_unfold]
  unfold val_main_v77 val_main_v74 val_main_v76 val_main_v75 val_main_v72 val_main_cst_10 val_main_v73 val_main_v71
    val_main_v70 val_main_v69 val_main_v66 val_main_v65 val_main_c_8 val_main_v68 val_main_v67 val_main_c_9
  rfl

/-- Layer 3 aggregates layer 2's result. -/
theorem agg3 : val_main_v103 (F := Ideal) x0 x1 x2 x3 x4 x5
    = val_main_v26 (F := Ideal) (val_main_v84 (F := Ideal) x0 x1 x2 x3 x4 x5) x1 x2 := by
  rw [agg_unfold]
  unfold val_main_v103 val_main_v100 val_main_v102 val_main_v101 val_main_v98 val_main_cst_13 val_main_v99 val_main_v97
    val_main_v96 val_main_v95 val_main_v92 val_main_v91 val_main_c_11 val_main_v94 val_main_v93 val_main_c_12
  rfl

/-- Layer 4 aggregates layer 3's result. -/
theorem agg4 : val_main_v129 (F := Ideal) x0 x1 x2 x3 x4 x5
    = val_main_v26 (F := Ideal) (val_main_v110 (F := Ideal) x0 x1 x2 x3 x4 x5) x1 x2 := by
  rw [agg_unfold]
  unfold val_main_v129 val_main_v126 val_main_v128 val_main_v127 val_main_v124 val_main_cst_16 val_main_v125 val_main_v123
    val_main_v122 val_main_v121 val_main_v118 val_main_v117 val_main_c_14 val_main_v120 val_main_v119 val_main_c_15
  rfl

/-- The output layer aggregates layer 4's result. -/
theorem agg5 : val_main_v149 (F := Ideal) x0 x1 x2 x3 x4 x5
    = val_main_v26 (F := Ideal) (val_main_v136 (F := Ideal) x0 x1 x2 x3 x4 x5) x1 x2 := by
  rw [agg_unfold]
  unfold val_main_v149 val_main_v146 val_main_v148 val_main_v147 val_main_v144 val_main_cst_19 val_main_v145 val_main_v143
    val_main_v142 val_main_v141 val_main_v138 val_main_v137 val_main_c_17 val_main_v140 val_main_v139 val_main_c_18
  rfl

end Cert.Sage.Ref

end
-- ==== Proof.RefNet.lean ====
/-
  The reference's result is the network of the specification.

  Layer by layer: the first layer's result is the affine map of the input features and their aggregation; each hidden
  layer's result is the activated affine map of the previous layer's result and ITS aggregation, which is the same
  aggregation function applied to that result; the output layer is the affine map into 47 columns, without activation.
  The weights and biases of the first five layers are the five slices of the stacked arrays; those of the output layer
  are arguments of their own. Chaining the six equations gives the network with the aggregation kept as the function
  "features ↦ the first layer's aggregation stage of those features".
-/
import proofs.«156612_j90675349553219_1_alg».proof.Proof.RefLayer
import proofs.«156612_j90675349553219_1_alg».proof.Proof.RefAgg

noncomputable section

namespace Cert.Sage.Ref

open Cert.ReferenceIdeal Cert.ReferenceIdeal.Gen Cert.ReferenceIdeal.Read Idealize.ShloMosaic

variable (x0 : (⟨S100000x128, .f32⟩ : BufTy).Contents (Elt Ideal)) (x1 x2 : (⟨S1600000, .i32⟩ : BufTy).Contents (Elt Ideal))
  (x3 x4 : (⟨S5x128x128, .f32⟩ : BufTy).Contents (Elt Ideal)) (x5 : (⟨S5x128, .f32⟩ : BufTy).Contents (Elt Ideal))
  (x6 x7 : (⟨S128x47, .f32⟩ : BufTy).Contents (Elt Ideal)) (x8 : (⟨S47, .f32⟩ : BufTy).Contents (Elt Ideal))

/-- Layer 0: the affine map of the input features and their aggregation, with the first slices of the weights; no activation. -/
theorem layer0 : val_main_v32 (F := Ideal) x0 x1 x2 x3 x4 x5
    = Cert.Sage.dense (D := 128) x0 (val_main_v26 (F := Ideal) x0 x1 x2) (val_main_v9 (F := Ideal) x3)
        (val_main_v11 (F := Ideal) x4) (val_main_v13 (F := Ideal) x5) := by
  unfold val_main_v32 val_main_v29 val_main_v27 val_main_v28 val_main_v31 val_main_v30
  exact layer_eq (D := 128) (by decide) _ rfl rfl rfl rfl rfl rfl _ _ _ _ _ _ _

/-- Layer 1: the activated affine map of layer 0's result and its aggregation, with the second slices of the weights. -/
theorem layer1 : val_main_v58 (F := Ideal) x0 x1 x2 x3 x4 x5
    = Cert.Sage.hidden (fun h => val_main_v26 (F := Ideal) h x1 x2) (val_main_v34 (F := Ideal) x3)
        (val_main_v36 (F := Ideal) x4) (val_main_v38 (F := Ideal) x5) (val_main_v32 (F := Ideal) x0 x1 x2 x3 x4 x5) := by
  unfold val_main_v58 val_main_v57 val_main_v54 val_main_v52 val_main_v53 val_main_v56 val_main_v55
    val_main_call0_v0 val_main_call0_cst Cert.Sage.hidden
  rw [agg1 x0 x1 x2 x3 x4 x5]
  generalize val_main_v32 (F := Ideal) x0 x1 x2 x3 x4 x5 = h
  exact (relu_eq _ _).trans
    (congrArg Cert.Sage.relu (layer_eq (D := 128) (by decide) _ rfl rfl rfl rfl rfl rfl _ _ _ _ _ _ _))

/-- Layer 2: the activated affine map of layer 1's result and its aggregation, with the third slices of the weights. -/
theorem layer2 : val_main_v84 (F := Ideal) x0 x1 x2 x3 x4 x5
    = Cert.Sage.hidden (fun h => val_main_v26 (F := Ideal) h x1 x2) (val_main_v60 (F := Ideal) x3)
        (val_main_v62 (F := Ideal) x4) (val_main_v64 (F := Ideal) x5) (val_main_v58 (F := Ideal) x0 x1 x2 x3 x4 x5) := by
  unfold val_main_v84 val_main_v83 val_main_v80 val_main_v78 val_main_v79 val_main_v82 val_main_v81
    val_main_call1_v0 val_main_call1_cst Cert.Sage.hidden
  rw [agg2 x0 x1 x2 x3 x4 x5]
  generalize val_main_v58 (F := Ideal) x0 x1 x2 x3 x4 x5 = h
  exact (relu_eq _ _).trans
    (congrArg Cert.Sage.relu (layer_eq (D := 128) (by decide) _ rfl rfl rfl rfl rfl rfl _ _ _ _ _ _ _))

/-- Layer 3: the activated affine map of layer 2's result and its aggregation, with the fourth slices of the weights. -/
theorem layer3 : val_main_v110 (F := Ideal) x0 x1 x2 x3 x4 x5
    = Cert.Sage.hidden (fun h => val_main_v26 (F := Ideal) h x1 x2) (val_main_v86 (F := Ideal) x3)
        (val_main_v88 (F := Ideal) x4) (val_main_v90 (F := Ideal) x5) (val_main_v84 (F := Ideal) x0 x1 x2 x3 x4 x5) := by
  unfold val_main_v110 val_main_v109 val_main_v106 val_main_v104 val_main_v105 val_main_v108 val_main_v107
    val_main_call2_v0 val_main_call2_cst Cert.Sage.hidden
  rw [agg3 x0 x1 x2 x3 x4 x5]
  generalize val_main_v84 (F := Ideal) x0 x1 x2 x3 x4 x5 = h
  exact (relu_eq _ _).trans
    (congrArg Cert.Sage.relu (layer_eq (D := 128) (by decide) _ rfl rfl rfl rfl rfl rfl _ _ _ _ _ _ _))

/-- Layer 4: the activated affine map of layer 3's result and its aggregation, with the fifth slices of the weights. -/
theorem layer4 : val_main_v136 (F := Ideal) x0 x1 x2 x3 x4 x5
    = Cert.Sage.hidden (fun h => val_main_v26 (F := Ideal) h x1 x2) (val_main_v112 (F := Ideal) x3)
        (val_main_v114 (F := Ideal) x4) (val_main_v116 (F := Ideal) x5) (val_main_v110 (F := Ideal) x0 x1 x2 x3 x4 x5) := by
  unfold val_main_v136 val_main_v135 val_main_v132 val_main_v130 val_main_v131 val_main_v134 val_main_v133
    val_main_call3_v0 val_main_call3_cst Cert.Sage.hidden
  rw [agg4 x0 x1 x2 x3 x4 x5]
  generalize val_main_v110 (F := Ideal) x0 x1 x2 x3 x4 x5 = h
  exact (relu_eq _ _).trans
    (congrArg Cert.Sage.relu (layer_eq (D := 128) (by decide) _ rfl rfl rfl rfl rfl rfl _ _ _ _ _ _ _))

/-- The output layer: the affine map of layer 4's result and its aggregation into 47 columns, with the output weights; no activation. -/
theorem layer5 : val_main_v155 (F := Ideal) x0 x1 x2 x3 x4 x5 x6 x7 x8
    = Cert.Sage.dense (D := 47) (val_main_v136 (F := Ideal) x0 x1 x2 x3 x4 x5)
        (val_main_v26 (F := Ideal) (val_main_v136 (F := Ideal) x0 x1 x2 x3 x4 x5) x1 x2) x6 x7 x8 := by
  unfold val_main_v155 val_main_v152 val_main_v150 val_main_v151 val_main_v154 val_main_v153
  rw [agg5 x0 x1 x2 x3 x4 x5]
  generalize val_main_v136 (F := Ideal) x0 x1 x2 x3 x4 x5 = h
  exact layer_eq (D := 47) (by decide) _ rfl rfl rfl rfl rfl rfl _ _ _ _ _ _ _

/-- THE REFERENCE'S RESULT IS THE NETWORK, with the aggregation taken as the first layer's aggregation stage as a
    function of its feature argument, and the weights and biases the sliced stages. -/
theorem result_eq : val_main_v155 (F := Ideal) x0 x1 x2 x3 x4 x5 x6 x7 x8
    = Cert.Sage.net (fun h => val_main_v26 (F := Ideal) h x1 x2) x0
        (val_main_v9 (F := Ideal) x3) (val_main_v11 (F := Ideal) x4) (val_main_v13 (F := Ideal) x5)
        (val_main_v34 (F := Ideal) x3) (val_main_v36 (F := Ideal) x4) (val_main_v38 (F := Ideal) x5)
        (val_main_v60 (F := Ideal) x3) (val_main_v62 (F := Ideal) x4) (val_main_v64 (F := Ideal) x5)
        (val_main_v86 (F := Ideal) x3) (val_main_v88 (F := Ideal) x4) (val_main_v90 (F := Ideal) x5)
        (val_main_v112 (F := Ideal) x3) (val_main_v114 (F := Ideal) x4) (val_main_v116 (F := Ideal) x5)
        x6 x7 x8 := by
  rw [layer5 x0 x1 x2 x3 x4 x5 x6 x7 x8, layer4 x0 x1 x2 x3 x4 x5, layer3 x0 x1 x2 x3 x4 x5, layer2 x0 x1 x2 x3 x4 x5,
    layer1 x0 x1 x2 x3 x4 x5, layer0 x0 x1 x2 x3 x4 x5]
  rfl

end Cert.Sage.Ref

end
-- ==== Proof.Bridge.lean ====
/-
  The two programs write the same host operations.

  The kernel's program and the reference are printed from the same array code around the layers' affine maps: the
  inverse in-degree, the aggregation, and the slices of the stacked weights and biases are, in both, the same
  compositions of the same operations. Each program prints its own copies of the shapes, of the dimension records of
  the gather and the two scatters, and of the side conditions of the broadcasts, slices and reshapes; the copies have
  equal fields, and a side condition is a proposition, so two copies of one are equal whatever their proofs. Hence each
  named piece of the kernel's host side equals the matching stage of the reference, and the network of the
  specification over the kernel's pieces is the reference's result. No gather, scatter or product is opened.
-/
import proofs.«156612_j90675349553219_1_alg».proof.Proof.KernDefs
import proofs.«156612_j90675349553219_1_alg».proof.Proof.RefNet

noncomputable section

namespace Cert.Sage.Bridge

open Cert.ReferenceIdeal Cert.ReferenceIdeal.Gen Cert.ReferenceIdeal.Read Idealize.ShloMosaic

variable (x0 : (⟨S100000x128, .f32⟩ : BufTy).Contents (Elt Ideal)) (x1 x2 : (⟨S1600000, .i32⟩ : BufTy).Contents (Elt Ideal))
  (x3 x4 : (⟨S5x128x128, .f32⟩ : BufTy).Contents (Elt Ideal)) (x5 : (⟨S5x128, .f32⟩ : BufTy).Contents (Elt Ideal))
  (x6 x7 : (⟨S128x47, .f32⟩ : BufTy).Contents (Elt Ideal)) (x8 : (⟨S47, .f32⟩ : BufTy).Contents (Elt Ideal))

/-- The inverse in-degree: one over the clamped count of edges into each node, in both programs. -/
theorem invDeg_eq : Cert.Sage.Kern.invDeg x2 = val_main_v7 (F := Ideal) x2 := by
  unfold Cert.Sage.Kern.invDeg val_main_v7 val_main_v6 val_main_v5 val_main_v4 val_main_v3 val_main_v2 val_main_v1 val_main_v0
    val_main_cst val_main_cst_0 val_main_cst_1 val_main_cst_2
  rfl

/-- The aggregation of any features h: gather at the sources, add into the destinations, scale by the inverse
    in-degree, in both programs. -/
theorem agg_eq (h : (⟨S100000x128, .f32⟩ : BufTy).Contents (Elt Ideal)) :
    Cert.Sage.Kern.agg x1 x2 h = val_main_v26 (F := Ideal) h x1 x2 := by
  rw [Cert.Sage.Ref.agg_unfold x1 x2 h, ← invDeg_eq x2]
  unfold Cert.Sage.Kern.agg Cert.Sage.Kern.aggWith
  rfl

/-- The same, as an equation between functions of the features. -/
theorem agg_fun_eq :
    Cert.Sage.Kern.agg x1 x2 = fun (h : (⟨S100000x128, .f32⟩ : BufTy).Contents (Elt Ideal)) => val_main_v26 (F := Ideal) h x1 x2 :=
  funext (agg_eq x1 x2)

/-- Layer 0's own-feature weights: slice 0 of the first stack. -/
theorem ws0_eq : Cert.Sage.Kern.wmat0 x3 = val_main_v9 (F := Ideal) x3 := by
  unfold Cert.Sage.Kern.wmat0 val_main_v9 val_main_v8
  rfl

/-- Layer 0's neighbour weights: slice 0 of the second stack. -/
theorem wn0_eq : Cert.Sage.Kern.wmat0 x4 = val_main_v11 (F := Ideal) x4 := by
  unfold Cert.Sage.Kern.wmat0 val_main_v11 val_main_v10
  rfl

/-- Layer 0's bias: row 0 of the stacked biases. -/
theorem b0_eq : Cert.Sage.Kern.bvec0 x5 = val_main_v13 (F := Ideal) x5 := by
  unfold Cert.Sage.Kern.bvec0 val_main_v13 val_main_v12
  rfl

/-- Layer 1's own-feature weights: slice 1 of the first stack. -/
theorem ws1_eq : Cert.Sage.Kern.wmat1 x3 = val_main_v34 (F := Ideal) x3 := by
  unfold Cert.Sage.Kern.wmat1 val_main_v34 val_main_v33
  rfl

/-- Layer 1's neighbour weights: slice 1 of the second stack. -/
theorem wn1_eq : Cert.Sage.Kern.wmat1 x4 = val_main_v36 (F := Ideal) x4 := by
  unfold Cert.Sage.Kern.wmat1 val_main_v36 val_main_v35
  rfl

/-- Layer 1's bias: row 1 of the stacked biases. -/
theorem b1_eq : Cert.Sage.Kern.bvec1 x5 = val_main_v38 (F := Ideal) x5 := by
  unfold Cert.Sage.Kern.bvec1 val_main_v38 val_main_v37
  rfl

/-- Layer 2's own-feature weights: slice 2 of the first stack. -/
theorem ws2_eq : Cert.Sage.Kern.wmat2 x3 = val_main_v60 (F := Ideal) x3 := by
  unfold Cert.Sage.Kern.wmat2 val_main_v60 val_main_v59
  rfl

/-- Layer 2's neighbour weights: slice 2 of the second stack. -/
theorem wn2_eq : Cert.Sage.Kern.wmat2 x4 = val_main_v62 (F := Ideal) x4 := by
  unfold Cert.Sage.Kern.wmat2 val_main_v62 val_main_v61
  rfl

/-- Layer 2's bias: row 2 of the stacked biases. -/
theorem b2_eq : Cert.Sage.Kern.bvec2 x5 = val_main_v64 (F := Ideal) x5 := by
  unfold Cert.Sage.Kern.bvec2 val_main_v64 val_main_v63
  rfl

/-- Layer 3's own-feature weights: slice 3 of the first stack. -/
theorem ws3_eq : Cert.Sage.Kern.wmat3 x3 = val_main_v86 (F := Ideal) x3 := by
  unfold Cert.Sage.Kern.wmat3 val_main_v86 val_main_v85
  rfl

/-- Layer 3's neighbour weights: slice 3 of the second stack. -/
theorem wn3_eq : Cert.Sage.Kern.wmat3 x4 = val_main_v88 (F := Ideal) x4 := by
  unfold Cert.Sage.Kern.wmat3 val_main_v88 val_main_v87
  rfl

/-- Layer 3's bias: row 3 of the stacked biases. -/
theorem b3_eq : Cert.Sage.Kern.bvec3 x5 = val_main_v90 (F := Ideal) x5 := by
  unfold Cert.Sage.Kern.bvec3 val_main_v90 val_main_v89
  rfl

/-- Layer 4's own-feature weights: slice 4 of the first stack. -/
theorem ws4_eq : Cert.Sage.Kern.wmat4 x3 = val_main_v112 (F := Ideal) x3 := by
  unfold Cert.Sage.Kern.wmat4 val_main_v112 val_main_v111
  rfl

/-- Layer 4's neighbour weights: slice 4 of the second stack. -/
theorem wn4_eq : Cert.Sage.Kern.wmat4 x4 = val_main_v114 (F := Ideal) x4 := by
  unfold Cert.Sage.Kern.wmat4 val_main_v114 val_main_v113
  rfl

/-- Layer 4's bias: row 4 of the stacked biases. -/
theorem b4_eq : Cert.Sage.Kern.bvec4 x5 = val_main_v116 (F := Ideal) x5 := by
  unfold Cert.Sage.Kern.bvec4 val_main_v116 val_main_v115
  rfl

/-- THE NETWORK OVER THE KERNEL'S HOST PIECES IS THE REFERENCE'S RESULT. -/
theorem net_eq :
    Cert.Sage.net (Cert.Sage.Kern.agg x1 x2) x0
        (Cert.Sage.Kern.wmat0 x3) (Cert.Sage.Kern.wmat0 x4) (Cert.Sage.Kern.bvec0 x5)
        (Cert.Sage.Kern.wmat1 x3) (Cert.Sage.Kern.wmat1 x4) (Cert.Sage.Kern.bvec1 x5)
        (Cert.Sage.Kern.wmat2 x3) (Cert.Sage.Kern.wmat2 x4) (Cert.Sage.Kern.bvec2 x5)
        (Cert.Sage.Kern.wmat3 x3) (Cert.Sage.Kern.wmat3 x4) (Cert.Sage.Kern.bvec3 x5)
        (Cert.Sage.Kern.wmat4 x3) (Cert.Sage.Kern.wmat4 x4) (Cert.Sage.Kern.bvec4 x5)
        x6 x7 x8
      = val_main_v155 (F := Ideal) x0 x1 x2 x3 x4 x5 x6 x7 x8 := by
  rw [agg_fun_eq x1 x2, ws0_eq x3, wn0_eq x4, b0_eq x5, ws1_eq x3, wn1_eq x4, b1_eq x5, ws2_eq x3, wn2_eq x4, b2_eq x5,
    ws3_eq x3, wn3_eq x4, b3_eq x5, ws4_eq x3, wn4_eq x4, b4_eq x5]
  exact (Cert.Sage.Ref.result_eq x0 x1 x2 x3 x4 x5 x6 x7 x8).symm

end Cert.Sage.Bridge

end
-- ==== Proof.lean ====
/-
  The kernel and its reference compute the same six-layer mean-aggregation network over the extended reals.

  Both programs take node features x (100000 × 128), an edge list (src, dst), five stacked hidden layers' weights and
  biases and an output layer's. A layer sends features h to h · ws + agg (h) · wn + b, where agg gathers the rows of h
  at the edges' sources, adds them into the edges' destination rows and scales row i by one over max (in-degree i, 1);
  layers 1 to 4 are followed by max (·, 0); the output layer has 47 columns. The aggregation is the same chain of host
  operations in both programs and is never opened. The kernel computes each layer's affine part in a region of 20 row
  blocks (5000 rows each, the whole 128-long contraction inside a block), whose blocks tile the rows, so the region's
  output array is the layer's map of its whole input arrays; the reference computes it as two matrix products and two
  sums. A matrix product into a zero accumulator and the host's dot_general are both the plain sum over k, and a change
  of float format is the identity, so entry by entry the two sides are the same expression: no law beyond the
  definition of a matrix product is used, and finiteness of the inputs is never needed.

  The frames of the two kernel programs are the generated ones; the reference's frame is its generated run with the
  result dropped; the idealization rewrote nothing, so there is nothing to preserve.
-/
import proofs.«156612_j90675349553219_1_alg».proof.Defs
import proofs.«156612_j90675349553219_1_alg».proof.Proof.Gen.Kernel
import proofs.«156612_j90675349553219_1_alg».proof.Proof.Gen.Kernel.Skeleton
import proofs.«156612_j90675349553219_1_alg».proof.Proof.Gen.Kernel.Launch
import proofs.«156612_j90675349553219_1_alg».proof.Proof.Gen.Kernel.Points
import proofs.«156612_j90675349553219_1_alg».proof.Proof.Gen.Kernel.Frame
import proofs.«156612_j90675349553219_1_alg».proof.Proof.Gen.KernelIdeal
import proofs.«156612_j90675349553219_1_alg».proof.Proof.Gen.KernelIdeal.Skeleton
import proofs.«156612_j90675349553219_1_alg».proof.Proof.Gen.KernelIdeal.Launch
import proofs.«156612_j90675349553219_1_alg».proof.Proof.Gen.KernelIdeal.Points
import proofs.«156612_j90675349553219_1_alg».proof.Proof.Gen.KernelIdeal.Frame
import proofs.«156612_j90675349553219_1_alg».proof.Proof.Gen.ReferenceIdeal
import proofs.«156612_j90675349553219_1_alg».proof.Proof.Gen.Pre_finite_inputs
import proofs.«156612_j90675349553219_1_alg».proof.Proof.Gen.ReferenceIdeal.Run
import proofs.«156612_j90675349553219_1_alg».proof.Proof.Gen.ReferenceIdeal.Read
import proofs.«156612_j90675349553219_1_alg».proof.Proof.KernValue
import proofs.«156612_j90675349553219_1_alg».proof.Proof.Bridge
import Idealize.ShloMosaic.Adequacy
import Idealize.ShloMosaic.Init

noncomputable section

namespace Cert.Proof

open Idealize.ShloMosaic Idealize.SL.Sem

/-- The word-level kernel terminates without a fault and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with what it says about the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs end with the network of those arguments in their
    result buffers: the kernel's by its walk through the six layers, the reference's by its run read stage by stage,
    and the two spellings of the network (each program's own host records) are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.Kern.result m c, Cert.Sage.Kern.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v155_eq, a0, a1, a2, a3, a4, a5, a6, a7, a8]
  unfold Cert.Sage.Kern.result
  exact (Cert.Sage.Bridge.net_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
